-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x128 : Shape := ⟨2, ![4096, 128]⟩
abbrev S4096x32768 : Shape := ⟨2, ![4096, 32768]⟩
abbrev S128x256 : Shape := ⟨2, ![128, 256]⟩
abbrev S128 : Shape := ⟨1, ![128]⟩
abbrev S_ : Shape := ⟨0, ![]⟩

class Facts : Prop where
  bcast_S_S4096x128 : S_.BroadcastsInDim S4096x128 (![] : Fin 0 → Fin S4096x128.rank)
  reducesTo_S4096x128_S_d0_1 : S4096x128.ReducesTo [0, 1] S_
  h_S_ : 0 < S_.numel
  bcast_S_S4096x32768 : S_.BroadcastsInDim S4096x32768 (![] : Fin 0 → Fin S4096x32768.rank)
  reducesTo_S4096x32768_S_d0_1 : S4096x32768.ReducesTo [0, 1] S_
  bcast_S_S128x256 : S_.BroadcastsInDim S128x256 (![] : Fin 0 → Fin S128x256.rank)
  reducesTo_S128x256_S_d0_1 : S128x256.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg4 : FVec F S128 .f32) (main_v13 : IVec S_ 1) (main_v16 : IVec S128x256 1) : IVec S_ 1 :=
  let main_c_5 : IVec S_ 1 := constantI S_ 1 1#1
  let main_v17 : IVec S_ 1 := (fun x v => Host.reduce IntOp.andi x v reducesTo_S128x256_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S4096x128 .f32) (main_arg1 : FVec F S4096x32768 .f32) (main_arg2 : FVec F S4096x32768 .f32) (main_arg3 : FVec F S128x256 .f32) (main_arg4 : FVec F S128 .f32) : IVec S_ 1 :=
  let main_v0 : FVec F S4096x128 .f32 := Host.absf main_arg0
  let main_cst : FVec F S_ .f32 := constant S_ .f32 0x7F800000#32
  let main_v1 : FVec F S4096x128 .f32 := broadcastInDim S4096x128 ![] bcast_S_S4096x128 main_cst
  let main_v2 : IVec S4096x128 1 := cmpf .olt main_v0 main_v1
  let main_c : IVec S_ 1 := constantI S_ 1 1#1
  let main_v3 : IVec S_ 1 := (fun x v => Host.reduce IntOp.andi x v reducesTo_S4096x128_S_d0_1 h_S_) main_v2 main_c
  let main_v4 : FVec F S4096x32768 .f32 := Host.absf main_arg1
  let main_cst_0 : FVec F S_ .f32 := constant S_ .f32 0x7F800000#32
  let main_v5 : FVec F S4096x32768 .f32 := broadcastInDim S4096x32768 ![] bcast_S_S4096x32768 main_cst_0
  let main_v6 : IVec S4096x32768 1 := cmpf .olt main_v4 main_v5
  let main_c_1 : IVec S_ 1 := constantI S_ 1 1#1
  let main_v7 : IVec S_ 1 := (fun x v => Host.reduce IntOp.andi x v reducesTo_S4096x32768_S_d0_1 h_S_) main_v6 main_c_1
  let main_v8 : IVec S_ 1 := andi main_v3 main_v7
  let main_v9 : FVec F S4096x32768 .f32 := Host.absf main_arg2
  let main_cst_2 : FVec F S_ .f32 := constant S_ .f32 0x7F800000#32
  let main_v10 : FVec F S4096x32768 .f32 := broadcastInDim S4096x32768 ![] bcast_S_S4096x32768 main_cst_2
  let main_v11 : IVec S4096x32768 1 := cmpf .olt main_v9 main_v10
  let main_c_3 : IVec S_ 1 := constantI S_ 1 1#1
  let main_v12 : IVec S_ 1 := (fun x v => Host.reduce IntOp.andi x v reducesTo_S4096x32768_S_d0_1 h_S_) main_v11 main_c_3
  let main_v13 : IVec S_ 1 := andi main_v8 main_v12
  let main_v14 : FVec F S128x256 .f32 := Host.absf main_arg3
  let main_cst_4 : FVec F S_ .f32 := constant S_ .f32 0x7F800000#32
  let main_v15 : FVec F S128x256 .f32 := broadcastInDim S128x256 ![] bcast_S_S128x256 main_cst_4
  let main_v16 : IVec S128x256 1 := cmpf .olt main_v14 main_v15
  fn_part1 (F := F) main_arg4 main_v13 main_v16
-- ==== Kernel.lean ====
abbrev S4096x128 : Shape := ⟨2, ![4096, 128]⟩
abbrev S4096x32768 : Shape := ⟨2, ![4096, 32768]⟩
abbrev S128x256 : Shape := ⟨2, ![128, 256]⟩
abbrev S128 : Shape := ⟨1, ![128]⟩
abbrev S128x128 : Shape := ⟨2, ![128, 128]⟩
abbrev S1x128 : Shape := ⟨2, ![1, 128]⟩
abbrev S2x4096x128 : Shape := ⟨3, ![2, 4096, 128]⟩
abbrev S4096x256 : Shape := ⟨2, ![4096, 256]⟩
abbrev S1x4096x128 : Shape := ⟨3, ![1, 4096, 128]⟩
abbrev S256x128 : Shape := ⟨2, ![256, 128]⟩

abbrev nBuf : Space → Nat
  | .hbm => 17
  | .vmem => 10
  | .smem => 0
  | _ => 0

abbrev bufTy : (tb : Table) → Fin (tcTables nBuf tb) → BufTy
  | .hbm, ⟨0, _⟩ => ⟨S4096x128, .f32⟩
  | .hbm, ⟨1, _⟩ => ⟨S4096x32768, .f32⟩
  | .hbm, ⟨2, _⟩ => ⟨S4096x32768, .f32⟩
  | .hbm, ⟨3, _⟩ => ⟨S128x256, .f32⟩
  | .hbm, ⟨4, _⟩ => ⟨S128, .f32⟩
  | .hbm, ⟨5, _⟩ => ⟨S4096x128, .bf16⟩
  | .hbm, ⟨6, _⟩ => ⟨S128x128, .f32⟩
  | .hbm, ⟨7, _⟩ => ⟨S128x128, .bf16⟩
  | .hbm, ⟨8, _⟩ => ⟨S128x128, .f32⟩
  | .hbm, ⟨9, _⟩ => ⟨S128x128, .bf16⟩
  | .hbm, ⟨10, _⟩ => ⟨S1x128, .f32⟩
  | .hbm, ⟨11, _⟩ => ⟨S2x4096x128, .f32⟩
  | .hbm, ⟨12, _⟩ => ⟨S1x4096x128, .f32⟩
  | .hbm, ⟨13, _⟩ => ⟨S4096x128, .f32⟩
  | .hbm, ⟨14, _⟩ => ⟨S1x4096x128, .f32⟩
  | .hbm, ⟨15, _⟩ => ⟨S4096x128, .f32⟩
  | .hbm, ⟨16, _⟩ => ⟨S4096x128, .f32⟩
  | .local _ .vmem, ⟨0, _⟩ => ⟨S4096x128, .bf16⟩
  | .local _ .vmem, ⟨1, _⟩ => ⟨S128x128, .bf16⟩
  | .local _ .vmem, ⟨2, _⟩ => ⟨S128x128, .bf16⟩
  | .local _ .vmem, ⟨3, _⟩ => ⟨S1x128, .f32⟩
  | .local _ .vmem, ⟨4, _⟩ => ⟨S4096x256, .f32⟩
  | .local _ .vmem, ⟨5, _⟩ => ⟨S4096x256, .f32⟩
  | .local _ .vmem, ⟨6, _⟩ => ⟨S4096x256, .f32⟩
  | .local _ .vmem, ⟨7, _⟩ => ⟨S4096x256, .f32⟩
  | .local _ .vmem, ⟨8, _⟩ => ⟨S1x4096x128, .f32⟩
  | .local _ .vmem, ⟨9, _⟩ => ⟨S1x4096x128, .f32⟩
  | _, _ => ⟨S4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem4_1 : DmaSem sig := 5
abbrev cc0_sem5_0 : DmaSem sig := 6
abbrev cc0_sem5_1 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨2, ![2, 64], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![c0_i32.toNat, v1.toNat]

def cc0_transform_5 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![c0_i32.toNat, v1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S4096x128 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S128x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S128x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S4096x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S4096x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x4096x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

class Facts₀ : Prop where
  bitsLt_bf16_f32 : FTy.bits .bf16 < FTy.bits .f32
  slices_S128x256_S128x128_0_0 : S128x256.Slices ![0, 0] S128x128
  slices_S128x256_S128x128_0_128 : S128x256.Slices ![0, 128] S128x128
  shapeCasts_S128_S1x128 : S128.ShapeCasts S1x128
  inb_S1x4096x128_S1x4096x128_0_0_0 : ∀ a, (![0, 0, 0] : Fin 3 → Nat) a + S1x4096x128.size a ≤ S1x4096x128.size a
  h_S1x4096x128 : 0 < S1x4096x128.numel
  shapeCasts_S1x4096x128_S4096x128 : S1x4096x128.ShapeCasts S4096x128
  shapeCasts_S4096x128_S1x4096x128 : S4096x128.ShapeCasts S1x4096x128
  inb_S4096x128_S4096x128_0_0 : ∀ a, (![0, 0] : Fin 2 → Nat) a + S4096x128.size a ≤ S4096x128.size a
  h_S4096x128 : 0 < S4096x128.numel
  shapeCasts_S4096x128_S4096x128 : S4096x128.ShapeCasts S4096x128
  inb_S4096x256_S4096x256_0_0 : ∀ a, (![0, 0] : Fin 2 → Nat) a + S4096x256.size a ≤ S4096x256.size a
  h_S4096x256 : 0 < S4096x256.numel
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S256x128 : S1x128.Broadcasts S256x128
  slices_S2x4096x128_S1x4096x128_0_0_0 : S2x4096x128.Slices ![0, 0, 0] S1x4096x128
  slices_S2x4096x128_S1x4096x128_1_0_0 : S2x4096x128.Slices ![1, 0, 0] S1x4096x128
  dot_S4096x256_S4096x128_S256x128_0_0_1_1_n_n_wf : DotDims.WF S4096x256 S4096x128 S256x128 [0] [0] [1] [1] [] []
  dot_S256x128_S128x128_S256x128_1_1_0_0_n_n_wf : DotDims.WF S256x128 S128x128 S256x128 [1] [1] [0] [0] [] []
  dot_S4096x256_S256x128_S4096x128_1_0_0_1_n_n_wf : DotDims.WF S4096x256 S256x128 S4096x128 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S4096x128.size a ≤ S4096x128.size a
  hwx0_0 : ∀ i : grid0.Coords, EltTy.bits .bf16 = 32 ∨ (Rect.block (s := S4096x128) S4096x128.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .bf16 = 32 ∨ (Rect.block (s := S128x128) S128x128.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .bf16 = 32 ∨ (Rect.block (s := S128x128) S128x128.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S4096x256.size a ≤ S4096x32768.size a
  hwx0_4 : ∀ i : grid0.Coords, EltTy.bits .f32 = 32 ∨ (Rect.block (s := S4096x32768) S4096x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S4096x256.size a ≤ S4096x32768.size a
  hwx0_5 : ∀ i : grid0.Coords, EltTy.bits .f32 = 32 ∨ (Rect.block (s := S4096x32768) S4096x256.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x4096x128.size a ≤ S2x4096x128.size a
  hwx0_6 : ∀ i : grid0.Coords, EltTy.bits .f32 = 32 ∨ (Rect.block (s := S2x4096x128) S1x4096x128.size (cc0_transform_6 i) (hinb0_6 i)).WholeWords (EltTy.packing .f32)

variable [Facts₀]

def dot_S4096x256_S4096x128_S256x128_0_0_1_1_n_n : DotDims S4096x256 S4096x128 S256x128 where
  lhsContracting := [0]
  rhsContracting := [0]
  lhsNonContracting := [1]
  rhsNonContracting := [1]
  lhsBatch := []
  rhsBatch := []
  wf := dot_S4096x256_S4096x128_S256x128_0_0_1_1_n_n_wf
def dot_S256x128_S128x128_S256x128_1_1_0_0_n_n : DotDims S256x128 S128x128 S256x128 where
  lhsContracting := [1]
  rhsContracting := [1]
  lhsNonContracting := [0]
  rhsNonContracting := [0]
  lhsBatch := []
  rhsBatch := []
  wf := dot_S256x128_S128x128_S256x128_1_1_0_0_n_n_wf
def dot_S4096x256_S256x128_S4096x128_1_0_0_1_n_n : DotDims S4096x256 S256x128 S4096x128 where
  lhsContracting := [1]
  rhsContracting := [0]
  lhsNonContracting := [0]
  rhsNonContracting := [1]
  lhsBatch := []
  rhsBatch := []
  wf := dot_S4096x256_S256x128_S4096x128_1_0_0_1_n_n_wf

abbrev win0_0 : Pipeline.Window sig grid0 :=
  Pipeline.Window.ofSpec (Memref.whole main_v0) S4096x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg1) S4096x256.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg2) S4096x256.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v6) S1x4096x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S4096x128 : Shape := ⟨2, ![4096, 128]⟩
abbrev S4096x32768 : Shape := ⟨2, ![4096, 32768]⟩
abbrev S128x256 : Shape := ⟨2, ![128, 256]⟩
abbrev S128 : Shape := ⟨1, ![128]⟩
abbrev S32768x4096 : Shape := ⟨2, ![32768, 4096]⟩
abbrev S32768x128 : Shape := ⟨2, ![32768, 128]⟩
abbrev S32768x256 : Shape := ⟨2, ![32768, 256]⟩
abbrev S256x128 : Shape := ⟨2, ![256, 128]⟩
abbrev S1x128 : Shape := ⟨2, ![1, 128]⟩
abbrev S_ : Shape := ⟨0, ![]⟩

abbrev nBuf : Space → Nat
  | .hbm => 19
  | .vmem => 0
  | .smem => 0
  | _ => 0

abbrev bufTy : (tb : Table) → Fin (tcTables nBuf tb) → BufTy
  | .hbm, ⟨0, _⟩ => ⟨S4096x128, .f32⟩
  | .hbm, ⟨1, _⟩ => ⟨S4096x32768, .f32⟩
  | .hbm, ⟨2, _⟩ => ⟨S4096x32768, .f32⟩
  | .hbm, ⟨3, _⟩ => ⟨S128x256, .f32⟩
  | .hbm, ⟨4, _⟩ => ⟨S128, .f32⟩
  | .hbm, ⟨5, _⟩ => ⟨S32768x4096, .f32⟩
  | .hbm, ⟨6, _⟩ => ⟨S32768x128, .f32⟩
  | .hbm, ⟨7, _⟩ => ⟨S32768x4096, .f32⟩
  | .hbm, ⟨8, _⟩ => ⟨S32768x128, .f32⟩
  | .hbm, ⟨9, _⟩ => ⟨S32768x256, .f32⟩
  | .hbm, ⟨10, _⟩ => ⟨S256x128, .f32⟩
  | .hbm, ⟨11, _⟩ => ⟨S32768x128, .f32⟩
  | .hbm, ⟨12, _⟩ => ⟨S1x128, .f32⟩
  | .hbm, ⟨13, _⟩ => ⟨S32768x128, .f32⟩
  | .hbm, ⟨14, _⟩ => ⟨S32768x128, .f32⟩
  | .hbm, ⟨15, _⟩ => ⟨S_, .f32⟩
  | .hbm, ⟨16, _⟩ => ⟨S32768x128, .f32⟩
  | .hbm, ⟨17, _⟩ => ⟨S32768x128, .f32⟩
  | .hbm, ⟨18, _⟩ => ⟨S4096x128, .f32⟩
  | _, _ => ⟨S4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_call0_cst : Ref sig .tc := ⟨.hbm, 15, rfl⟩
abbrev main_call0_v0 : Ref sig .tc := ⟨.hbm, 16, rfl⟩
abbrev main_v10 : Ref sig .tc := ⟨.hbm, 17, rfl⟩
abbrev main_v11 : Ref sig .tc := ⟨.hbm, 18, rfl⟩

abbrev nD : Nat := 1
abbrev τ : Topo := Topo.v7x

variable {F : FTy → Type} [FloatOps F]

class Facts₀ : Prop where
  transposes_S4096x32768_S32768x4096_1_0 : S4096x32768.Transposes [1, 0] S32768x4096
  concatenates_S32768x128_S32768x128_S32768x256_d1 : Shape.Concatenates [S32768x128, S32768x128] S32768x256 1
  transposes_S128x256_S256x128_1_0 : S128x256.Transposes [1, 0] S256x128
  bcast_S128_S1x128_1 : S128.BroadcastsInDim S1x128 (![1] : Fin 1 → Fin S1x128.rank)
  bcast_S1x128_S32768x128_0_1 : S1x128.BroadcastsInDim S32768x128 (![0, 1] : Fin 2 → Fin S32768x128.rank)
  bcast_S_S32768x128 : S_.BroadcastsInDim S32768x128 (![] : Fin 0 → Fin S32768x128.rank)
  dot_S32768x4096_S4096x128_S32768x128_1_0_0_1_n_n_wf : DotDims.WF S32768x4096 S4096x128 S32768x128 [1] [0] [0] [1] [] []
  dot_S32768x256_S256x128_S32768x128_1_0_0_1_n_n_wf : DotDims.WF S32768x256 S256x128 S32768x128 [1] [0] [0] [1] [] []
  dot_S4096x32768_S32768x128_S4096x128_1_0_0_1_n_n_wf : DotDims.WF S4096x32768 S32768x128 S4096x128 [1] [0] [0] [1] [] []

variable [Facts₀]

def dot_S32768x4096_S4096x128_S32768x128_1_0_0_1_n_n : DotDims S32768x4096 S4096x128 S32768x128 where
  lhsContracting := [1]
  rhsContracting := [0]
  lhsNonContracting := [0]
  rhsNonContracting := [1]
  lhsBatch := []
  rhsBatch := []
  wf := dot_S32768x4096_S4096x128_S32768x128_1_0_0_1_n_n_wf
def dot_S32768x256_S256x128_S32768x128_1_0_0_1_n_n : DotDims S32768x256 S256x128 S32768x128 where
  lhsContracting := [1]
  rhsContracting := [0]
  lhsNonContracting := [0]
  rhsNonContracting := [1]
  lhsBatch := []
  rhsBatch := []
  wf := dot_S32768x256_S256x128_S32768x128_1_0_0_1_n_n_wf
def dot_S4096x32768_S32768x128_S4096x128_1_0_0_1_n_n : DotDims S4096x32768 S32768x128 S4096x128 where
  lhsContracting := [1]
  rhsContracting := [0]
  lhsNonContracting := [0]
  rhsNonContracting := [1]
  lhsBatch := []
  rhsBatch := []
  wf := dot_S4096x32768_S32768x128_S4096x128_1_0_0_1_n_n_wf

class Facts : Prop extends Facts₀ where

variable [Facts]
-- ==== Proof.SumBlocks.lean ====
/-
  Sums over an initial segment of the naturals cut into consecutive blocks of one length, in any commutative
  additive monoid: the first `b * (T + 1)` terms are the first `b * T` terms and then the `b` terms of block `T`.
  No distributivity and no cancellation is used, so the laws hold of extended reals, infinities included.
-/
import Idealize.ShloMosaic.PureOps.Ideal

namespace Cert.SumBlocks

open Finset

/-- The first `b * (T + 1)` terms: the first `b * T`, then block `T`. -/
theorem sum_range_mul_succ {M : Type*} [AddCommMonoid M] (f : ℕ → M) (b T : ℕ) :
    ∑ E ∈ range (b * (T + 1)), f E = ∑ E ∈ range (b * T), f E + ∑ j ∈ range b, f (b * T + j) := by
  rw [Nat.mul_succ, Finset.sum_range_add]

/-- A sum over `Fin n` of a function that is the restriction of one on the naturals, as a sum over `range n`. -/
theorem sum_fin_eq_range {M : Type*} [AddCommMonoid M] (n : ℕ) (f : ℕ → M) :
    ∑ i : Fin n, f i.val = ∑ i ∈ range n, f i :=
  Fin.sum_univ_eq_sum_range f n

end Cert.SumBlocks
-- ==== Proof.Spec.lean ====
/-
  The specification: what both programs compute, as ONE function of the five argument arrays over the extended reals.

  Nodes carry features `x[n, d]` (4096 nodes, 128 features); `src[n, E]` and `tgt[n, E]` weigh node `n` on edge `E`
  (32768 edges); `fw[o, k]` is a 128 × 256 weight whose columns 0–127 act on the source side and 128–255 on the
  target side; `fb[o]` is a bias.
    gathered a E d = ∑ n, a[n, E] · x[n, d]                                   (node features gathered onto edge E)
    edgeOut E o    = max ((∑ d, gathered src E d · fw[o, d] + ∑ d, gathered tgt E d · fw[o, 128 + d]) + fb[o]) 0
    G n o          = ∑ E, tgt[n, E] · edgeOut E o                              (edge outputs scattered back to node n)
  The sum over the 32768 edges is also cut into 128 consecutive tiles of 256 edges, 64 tiles to each of two halves:
  `upTo n o c e` is the sum over the first `e + 1` tiles of half `c`, and `G = upTo 0 63 + upTo 1 63`. Only
  commutativity and associativity of the sum are used: nothing here needs a finite entry.
-/
import Idealize.ShloMosaic.PureOps.Ideal
import Idealize.ShloMosaic.Lib.ValueIdx
import proofs.«173912_j58995670778248_2_alg».proof.Proof.SumBlocks

noncomputable section

namespace Cert.Spec

open Idealize.ShloMosaic Idealize.ShloMosaic.ValueIdx Finset

abbrev SX : Shape := ⟨2, ![4096, 128]⟩
abbrev SA : Shape := ⟨2, ![4096, 32768]⟩
abbrev SW : Shape := ⟨2, ![128, 256]⟩
abbrev SB : Shape := ⟨1, ![128]⟩

/-- Column `d` of the weight's source half. -/
abbrev lo (d : Fin 128) : Fin 256 := ⟨d.val, by omega⟩
/-- Column `128 + d`: column `d` of the weight's target half. -/
abbrev hi (d : Fin 128) : Fin 256 := ⟨128 + d.val, by omega⟩

variable (x : SX.Idx → EReal) (src tgt : SA.Idx → EReal) (fw : SW.Idx → EReal) (fb : SB.Idx → EReal)

/-- Node features gathered onto edge `E` through the incidence weights `a`. -/
def gathered (a : SA.Idx → EReal) (E : Fin 32768) (d : Fin 128) : EReal :=
  ∑ n : Fin 4096, a (ix2 n E) * x (ix2 n d)

/-- The edge's output feature `o`: the linear layer on (source side, target side), the bias, the rectifier. -/
def edgeOut (E : Fin 32768) (o : Fin 128) : EReal :=
  max ((∑ d : Fin 128, gathered x src E d * fw (ix2 o (lo d))
      + ∑ d : Fin 128, gathered x tgt E d * fw (ix2 o (hi d))) + fb (ix1 o)) 0

/-- The result at node `n`, feature `o`. -/
def G (n : Fin 4096) (o : Fin 128) : EReal :=
  ∑ E : Fin 32768, tgt (ix2 n E) * edgeOut x src tgt fw fb E o

/-- Edge `E`'s term of `G n o`, as a function on the naturals (zero past the last edge). -/
def term (n : Fin 4096) (o : Fin 128) (E : ℕ) : EReal :=
  if h : E < 32768 then tgt (ix2 n ⟨E, h⟩) * edgeOut x src tgt fw fb ⟨E, h⟩ o else 0

theorem term_of_lt (n : Fin 4096) (o : Fin 128) (E : ℕ) (h : E < 32768) :
    term x src tgt fw fb n o E = tgt (ix2 n ⟨E, h⟩) * edgeOut x src tgt fw fb ⟨E, h⟩ o := dif_pos h

theorem G_eq_range (n : Fin 4096) (o : Fin 128) :
    G x src tgt fw fb n o = ∑ E ∈ range 32768, term x src tgt fw fb n o E := by
  unfold G
  rw [← Fin.sum_univ_eq_sum_range (term x src tgt fw fb n o) 32768]
  exact Finset.sum_congr rfl fun E _ => (term_of_lt x src tgt fw fb n o E.val E.isLt).symm

/-- Tile `T` (edges `256 T … 256 T + 255`) of `G n o`. -/
def tile (n : Fin 4096) (o : Fin 128) (T : ℕ) : EReal :=
  ∑ j : Fin 256, term x src tgt fw fb n o (256 * T + j.val)

theorem tile_eq_range (n : Fin 4096) (o : Fin 128) (T : ℕ) :
    tile x src tgt fw fb n o T = ∑ j ∈ range 256, term x src tgt fw fb n o (256 * T + j) :=
  Fin.sum_univ_eq_sum_range (fun j => term x src tgt fw fb n o (256 * T + j)) 256

/-- The sum over the first `e + 1` tiles of half `c` (tiles `64 c … 64 c + e`). -/
def upTo (n : Fin 4096) (o : Fin 128) (c e : ℕ) : EReal :=
  ∑ E ∈ range (256 * (e + 1)), term x src tgt fw fb n o (16384 * c + E)

/-- The first tile of a half, accumulated into zero. -/
theorem upTo_zero (n : Fin 4096) (o : Fin 128) (c : ℕ) :
    upTo x src tgt fw fb n o c 0 = 0 + tile x src tgt fw fb n o (64 * c) := by
  rw [zero_add, tile_eq_range]
  unfold upTo
  refine Finset.sum_congr rfl fun j _ => ?_
  congr 1; omega

/-- One more tile. -/
theorem upTo_succ (n : Fin 4096) (o : Fin 128) (c e : ℕ) :
    upTo x src tgt fw fb n o c (e + 1) = upTo x src tgt fw fb n o c e + tile x src tgt fw fb n o (64 * c + (e + 1)) := by
  unfold upTo
  rw [SumBlocks.sum_range_mul_succ (fun E => term x src tgt fw fb n o (16384 * c + E)) 256 (e + 1), tile_eq_range]
  congr 1
  refine Finset.sum_congr rfl fun j _ => ?_
  congr 1; omega

/-- After its last tile a half holds its 16384 edges. -/
theorem upTo_last (n : Fin 4096) (o : Fin 128) (c : ℕ) :
    upTo x src tgt fw fb n o c 63 = ∑ E ∈ range 16384, term x src tgt fw fb n o (16384 * c + E) := by
  unfold upTo
  rw [show 256 * (63 + 1) = 16384 from by norm_num]

/-- The two halves make the whole. -/
theorem G_eq_halves (n : Fin 4096) (o : Fin 128) :
    G x src tgt fw fb n o = upTo x src tgt fw fb n o 0 63 + upTo x src tgt fw fb n o 1 63 := by
  rw [G_eq_range, upTo_last, upTo_last, show (32768 : ℕ) = 16384 + 16384 from by norm_num, Finset.sum_range_add]
  refine congrArg₂ (· + ·) (Finset.sum_congr rfl fun E _ => ?_) (Finset.sum_congr rfl fun E _ => ?_)
  · exact congrArg (term x src tgt fw fb n o) (by omega)
  · exact congrArg (term x src tgt fw fb n o) (by omega)

end Cert.Spec

end
-- ==== Proof.RefIsSpec.lean ====
/-
  The reference's value is the specification's G.

  The reference computes, one array operation at a time: the transposes of src and tgt, their products with x
  (the node features gathered onto the edges), the two gathered arrays joined side by side into a 32768 x 256 array,
  its product with the transpose of fw, the bias added, the maximum with zero, and last the product of tgt with
  that. Read at one index, every stage is a finite sum or a pointwise operation of the stage before. The only law of
  sums used is that a sum over 256 columns is the sum over the first 128 plus the sum over the last 128: a column of
  the joined array below 128 reads the source side, a column 128 + d reads the target side at d.
-/
import proofs.«173912_j58995670778248_2_alg».proof.Proof.Gen.ReferenceIdeal.Read
import proofs.«173912_j58995670778248_2_alg».proof.Proof.Spec
import Idealize.ShloMosaic.Lib.Pipeline.Value
import Idealize.ShloMosaic.Lib.ValueIdx
import Idealize.ShloMosaic.PureOps.Ideal.Laws

noncomputable section

namespace Cert.RefIsSpec

open Cert.ReferenceIdeal Cert.ReferenceIdeal.Gen Idealize.ShloMosaic Idealize.ShloMosaic.ValueIdx Finset
open Cert.Spec (lo hi gathered edgeOut G)

/-! ## The one law of sums -/

/-- A sum over 256 columns is the sum over the first 128 plus the sum over the last 128. -/
theorem sum_256 {M : Type*} [AddCommMonoid M] (f : Fin 256 → M) :
    ∑ k : Fin 256, f k = ∑ d : Fin 128, f (lo d) + ∑ d : Fin 128, f (hi d) :=
  Fin.sum_univ_add (a := 128) (b := 128) f

/-! ## The gathered features -/

/-- The product of the transpose of src with x, at edge E and feature d, is the gathered feature. -/
theorem v1_eq (x0 : FVec Ideal S4096x128 .f32) (x1 : FVec Ideal S4096x32768 .f32) (E : Fin 32768) (d : Fin 128) :
    Read.val_main_v1 (F := Ideal) x0 x1 (ix2 E d) = gathered x0 x1 E d := by
  rw [Read.val_main_v1_apply]
  unfold Cert.Spec.gathered
  refine Finset.sum_congr rfl fun n _ => ?_
  rw [Read.val_main_v0_apply]
  have e1 : Read.idx_main_v0 (Read.lidx_main_v1 (ix2 E d) n) = ix2 n E :=
    funext fun a => Fin.ext (by match a with | ⟨0, _⟩ => rfl | ⟨1, _⟩ => rfl)
  have e2 : Read.ridx_main_v1 (ix2 E d) n = ix2 n d :=
    funext fun a => Fin.ext (by match a with | ⟨0, _⟩ => rfl | ⟨1, _⟩ => rfl)
  rw [e1, e2]

/-- The same through tgt. -/
theorem v3_eq (x0 : FVec Ideal S4096x128 .f32) (x2 : FVec Ideal S4096x32768 .f32) (E : Fin 32768) (d : Fin 128) :
    Read.val_main_v3 (F := Ideal) x0 x2 (ix2 E d) = gathered x0 x2 E d := by
  rw [Read.val_main_v3_apply]
  unfold Cert.Spec.gathered
  refine Finset.sum_congr rfl fun n _ => ?_
  rw [Read.val_main_v2_apply]
  have e1 : Read.idx_main_v2 (Read.lidx_main_v3 (ix2 E d) n) = ix2 n E :=
    funext fun a => Fin.ext (by match a with | ⟨0, _⟩ => rfl | ⟨1, _⟩ => rfl)
  have e2 : Read.ridx_main_v3 (ix2 E d) n = ix2 n d :=
    funext fun a => Fin.ext (by match a with | ⟨0, _⟩ => rfl | ⟨1, _⟩ => rfl)
  rw [e1, e2]

/-! ## The joined array -/

/-- A column below 128 of the joined array reads the source side. -/
theorem v4_lo (x0 : FVec Ideal S4096x128 .f32) (x1 x2 : FVec Ideal S4096x32768 .f32) (E : Fin 32768) (d : Fin 128) :
    Read.val_main_v4 (F := Ideal) x0 x1 x2 (ix2 E (lo d)) = gathered x0 x1 E d := by
  unfold Read.val_main_v4
  rw [concatenate_pair_apply_left (1 : Fin S32768x256.rank) (Read.val_main_v1 (F := Ideal) x0 x1)
    (Read.val_main_v3 (F := Ideal) x0 x2) concatenates_S32768x128_S32768x128_S32768x256_d1 (ix2 E (lo d)) rfl (ix2 E d)
    (fun b => match b with | ⟨0, _⟩ => rfl | ⟨1, _⟩ => rfl)]
  exact v1_eq x0 x1 E d

/-- Column 128 + d of the joined array reads the target side at d. -/
theorem v4_hi (x0 : FVec Ideal S4096x128 .f32) (x1 x2 : FVec Ideal S4096x32768 .f32) (E : Fin 32768) (d : Fin 128) :
    Read.val_main_v4 (F := Ideal) x0 x1 x2 (ix2 E (hi d)) = gathered x0 x2 E d := by
  unfold Read.val_main_v4
  rw [concatenate_pair_apply_right (1 : Fin S32768x256.rank) (Read.val_main_v1 (F := Ideal) x0 x1)
    (Read.val_main_v3 (F := Ideal) x0 x2) concatenates_S32768x128_S32768x128_S32768x256_d1 (ix2 E (hi d)) rfl rfl (ix2 E d)
    (fun b hb => match b, hb with
      | ⟨0, _⟩, _ => rfl
      | ⟨1, _⟩, hb => absurd rfl hb)
    (by show d.val + 128 = 128 + d.val; omega)]
  exact v3_eq x0 x2 E d

/-! ## The linear layer, the bias, the rectifier -/

/-- The product of the joined array with the transpose of fw: the source half's sum plus the target half's. -/
theorem v6_eq (x0 : FVec Ideal S4096x128 .f32) (x1 x2 : FVec Ideal S4096x32768 .f32) (x3 : FVec Ideal S128x256 .f32)
    (E : Fin 32768) (o : Fin 128) :
    Read.val_main_v6 (F := Ideal) x0 x1 x2 x3 (ix2 E o)
      = ∑ d : Fin 128, gathered x0 x1 E d * x3 (ix2 o (lo d)) + ∑ d : Fin 128, gathered x0 x2 E d * x3 (ix2 o (hi d)) := by
  rw [Read.val_main_v6_apply, sum_256]
  refine congrArg₂ (· + ·) (Finset.sum_congr rfl fun d _ => ?_) (Finset.sum_congr rfl fun d _ => ?_)
  · have e1 : Read.lidx_main_v6 (ix2 E o) (lo d) = ix2 E (lo d) :=
      funext fun a => Fin.ext (by match a with | ⟨0, _⟩ => rfl | ⟨1, _⟩ => rfl)
    have e2 : Read.idx_main_v5 (Read.ridx_main_v6 (ix2 E o) (lo d)) = ix2 o (lo d) :=
      funext fun a => Fin.ext (by match a with | ⟨0, _⟩ => rfl | ⟨1, _⟩ => rfl)
    rw [Read.val_main_v5_apply, e1, e2, v4_lo]
  · have e1 : Read.lidx_main_v6 (ix2 E o) (hi d) = ix2 E (hi d) :=
      funext fun a => Fin.ext (by match a with | ⟨0, _⟩ => rfl | ⟨1, _⟩ => rfl)
    have e2 : Read.idx_main_v5 (Read.ridx_main_v6 (ix2 E o) (hi d)) = ix2 o (hi d) :=
      funext fun a => Fin.ext (by match a with | ⟨0, _⟩ => rfl | ⟨1, _⟩ => rfl)
    rw [Read.val_main_v5_apply, e1, e2, v4_hi]

/-- The bias, spread over the edges, reads fb at the feature. -/
theorem v8_eq (x4 : FVec Ideal S128 .f32) (E : Fin 32768) (o : Fin 128) :
    Read.val_main_v8 (F := Ideal) x4 (ix2 E o) = x4 (ix1 o) := by
  rw [Read.val_main_v8_apply, Read.val_main_v7_apply]
  have e : Read.idx_main_v7 (Read.idx_main_v8 (ix2 E o)) = ix1 o :=
    funext fun a => Fin.ext (by match a with | ⟨0, _⟩ => rfl)
  rw [e]

/-- The rectifier's constant is zero everywhere. -/
theorem zero_eq (E : Fin 32768) (o : Fin 128) :
    Read.val_main_call0_v0 (F := Ideal) (ix2 E o) = (0 : EReal) := by
  rw [Read.val_main_call0_v0_apply, Read.val_main_call0_cst_apply, Ideal.ofBits_def, Ideal.ofBits_zero_f32]

/-- The rectified edge value is the specification's edge output. -/
theorem v10_eq (x0 : FVec Ideal S4096x128 .f32) (x1 x2 : FVec Ideal S4096x32768 .f32) (x3 : FVec Ideal S128x256 .f32)
    (x4 : FVec Ideal S128 .f32) (E : Fin 32768) (o : Fin 128) :
    Read.val_main_v10 (F := Ideal) x0 x1 x2 x3 x4 (ix2 E o) = edgeOut x0 x1 x2 x3 x4 E o := by
  rw [Read.val_main_v10_apply, Read.val_main_v9_apply, v6_eq, v8_eq, zero_eq]
  rfl

/-! ## The result -/

/-- The product of tgt with the rectified edge values, at node n and feature o, is G. -/
theorem v11_eq (x0 : FVec Ideal S4096x128 .f32) (x1 x2 : FVec Ideal S4096x32768 .f32) (x3 : FVec Ideal S128x256 .f32)
    (x4 : FVec Ideal S128 .f32) (n : Fin 4096) (o : Fin 128) :
    Read.val_main_v11 (F := Ideal) x0 x1 x2 x3 x4 (ix2 n o) = G x0 x1 x2 x3 x4 n o := by
  rw [Read.val_main_v11_apply]
  unfold Cert.Spec.G
  refine Finset.sum_congr rfl fun k _ => ?_
  have e1 : Read.lidx_main_v11 (ix2 n o) k = ix2 n k :=
    funext fun a => Fin.ext (by match a with | ⟨0, _⟩ => rfl | ⟨1, _⟩ => rfl)
  have e2 : Read.ridx_main_v11 (ix2 n o) k = ix2 k o :=
    funext fun a => Fin.ext (by match a with | ⟨0, _⟩ => rfl | ⟨1, _⟩ => rfl)
  rw [e1, e2, v10_eq]

/-- The reference's value is G. -/
theorem ref_eq (x0 : FVec Ideal Cert.ReferenceIdeal.S4096x128 .f32) (x1 x2 : FVec Ideal Cert.ReferenceIdeal.S4096x32768 .f32)
    (x3 : FVec Ideal Cert.ReferenceIdeal.S128x256 .f32) (x4 : FVec Ideal Cert.ReferenceIdeal.S128 .f32) :
    Cert.ReferenceIdeal.Read.val_main_v11 (F := Ideal) x0 x1 x2 x3 x4 = fun i => Cert.Spec.G x0 x1 x2 x3 x4 (i 0) (i 1) := by
  funext i
  exact (congrArg (Read.val_main_v11 (F := Ideal) x0 x1 x2 x3 x4) (eq_ix2 i)).trans (v11_eq x0 x1 x2 x3 x4 (i 0) (i 1))

end Cert.RefIsSpec

end
-- ==== Proof.Blocks.lean ====
/-
  The input windows' blocks, read at an index of the argument arrays.

  The features, the two weight halves and the bias are staged whole at every grid point (block index zero); the
  incidence weights are staged a tile of 256 edge columns at a time, the tile at grid point `t` being columns
  `256 t … 256 t + 255` (the two grid axes, 2 halves × 64 tiles, enumerate the 128 tiles in order). The arrays those
  windows stage were written by the host from the arguments before the region: a change of float format (the identity
  on extended reals), the two column halves of the weight, and the bias re-shaped to one row.
-/
import proofs.«173912_j58995670778248_2_alg».proof.Proof.Gen.KernelIdeal.Frame
import Idealize.ShloMosaic.Lib.Pipeline.Value
import Idealize.ShloMosaic.Lib.Tactic
import Idealize.ShloMosaic.Lib.ValueIdx
import Idealize.ShloMosaic.Lib.ValueLayout
import Idealize.ShloMosaic.PureOps.Ideal
import Idealize.ShloMosaic.PureOps.Ideal.Laws

set_option maxRecDepth 16384

noncomputable section

open Idealize.ShloMosaic Idealize.ShloMosaic.TcCoe Idealize.ShloMosaic.Tactic Idealize.SL.Sem
open Idealize.ShloMosaic.Pipeline (Dat)

namespace Cert.Blocks

open Cert.KernelIdeal Cert.KernelIdeal.Gen

open Idealize.ShloMosaic.ValueIdx

variable (m : (ℓ : Loc nD τ sig) → Buf (Elt Ideal) ℓ)

/-! ## The index maps, decided over the grid -/

theorem idx0 : ∀ t : Fin cfg0.N, win0_0.index t 0 = 0 ∧ win0_0.index t 1 = 0 :=
  (by decide +kernel : ∀ t : Fin grid0.N, win0_0.index t 0 = 0 ∧ win0_0.index t 1 = 0)
theorem idx1 : ∀ t : Fin cfg0.N, win0_1.index t 0 = 0 ∧ win0_1.index t 1 = 0 :=
  (by decide +kernel : ∀ t : Fin grid0.N, win0_1.index t 0 = 0 ∧ win0_1.index t 1 = 0)
theorem idx2 : ∀ t : Fin cfg0.N, win0_2.index t 0 = 0 ∧ win0_2.index t 1 = 0 :=
  (by decide +kernel : ∀ t : Fin grid0.N, win0_2.index t 0 = 0 ∧ win0_2.index t 1 = 0)
theorem idx3 : ∀ t : Fin cfg0.N, win0_3.index t 0 = 0 ∧ win0_3.index t 1 = 0 :=
  (by decide +kernel : ∀ t : Fin grid0.N, win0_3.index t 0 = 0 ∧ win0_3.index t 1 = 0)
theorem idx4 : ∀ t : Fin cfg0.N, win0_4.index t 0 = 0 ∧ win0_4.index t 1 = t.val :=
  (by decide +kernel : ∀ t : Fin grid0.N, win0_4.index t 0 = 0 ∧ win0_4.index t 1 = t.val)
theorem idx5 : ∀ t : Fin cfg0.N, win0_5.index t 0 = 0 ∧ win0_5.index t 1 = t.val :=
  (by decide +kernel : ∀ t : Fin grid0.N, win0_5.index t 0 = 0 ∧ win0_5.index t 1 = t.val)
/-- The output's block is the half's slab: its index is the half `t / 64`. -/
theorem idx6 : ∀ t : Fin cfg0.N, win0_6.index t 0 = t.val / 64 ∧ win0_6.index t 1 = 0 ∧ win0_6.index t 2 = 0 :=
  (by decide +kernel : ∀ t : Fin grid0.N, win0_6.index t 0 = t.val / 64 ∧ win0_6.index t 1 = 0 ∧ win0_6.index t 2 = 0)

/-! ## The arrays the host wrote before the region -/

/-- The features in the narrower float format: the same extended reals. -/
theorem V_v0 (c : Dev nD) : (V m c main_v0 : S4096x128.Idx → EReal) = (m ((c : Thread nD τ).loc main_arg0) : S4096x128.Idx → EReal) := by
  show StableHlo.after hostOps0 (fun b => m (c, b)) (Proc.devRef .tc main_v0) = _
  after_results
  rfl

/-- The weight's source half: columns 0–127. -/
theorem V_v2 (c : Dev nD) : (V m c main_v2 : S128x128.Idx → EReal)
    = extractStridedSlice S128x128 ![0, 0] (m ((c : Thread nD τ).loc main_arg3)) slices_S128x256_S128x128_0_0 := by
  show StableHlo.after hostOps0 (fun b => m (c, b)) (Proc.devRef .tc main_v2) = _
  after_results
  rfl

/-- The weight's target half: columns 128–255. -/
theorem V_v4 (c : Dev nD) : (V m c main_v4 : S128x128.Idx → EReal)
    = extractStridedSlice S128x128 ![0, 128] (m ((c : Thread nD τ).loc main_arg3)) slices_S128x256_S128x128_0_128 := by
  show StableHlo.after hostOps0 (fun b => m (c, b)) (Proc.devRef .tc main_v4) = _
  after_results
  rfl

/-- The bias as one row. -/
theorem V_v5 (c : Dev nD) : (V m c main_v5 : S1x128.Idx → EReal)
    = shapeCast S1x128 (m ((c : Thread nD τ).loc main_arg4)) shapeCasts_S128_S1x128 := by
  show StableHlo.after hostOps0 (fun b => m (c, b)) (Proc.devRef .tc main_v5) = _
  after_results
  rfl

/-! ## The blocks at an index -/

/-- The feature block is the feature array. -/
theorem blk0 (c : Dev nD) (t : Fin cfg0.N) (p : Fin 4096) (d : Fin 128) :
    (iblk m c 0 t : Vec Ideal S4096x128 .bf16) (ix2 p d) = m ((c : Thread nD τ).loc main_arg0) (ix2 p d) := by
  unfold iblk
  rw [View.read_apply]
  show V m c main_v0 _ = _
  refine (congrFun (V_v0 m c) _).trans ?_
  refine congrArg (m ((c : Thread nD τ).loc main_arg0)) (funext fun a => Fin.ext ?_)
  match a with
  | ⟨0, _⟩ => show win0_0.index t 0 * 4096 + 1 * p.val = p.val; rw [(idx0 t).1]; omega
  | ⟨1, _⟩ => show win0_0.index t 1 * 128 + 1 * d.val = d.val; rw [(idx0 t).2]; omega

/-- The first weight block is the weight's columns 0–127. -/
theorem blk1 (c : Dev nD) (t : Fin cfg0.N) (o d : Fin 128) :
    (iblk m c 1 t : Vec Ideal S128x128 .bf16) (ix2 o d) = m ((c : Thread nD τ).loc main_arg3) (ix2 o (⟨d.val, by omega⟩ : Fin 256)) := by
  unfold iblk
  rw [View.read_apply]
  show V m c main_v2 _ = _
  refine (congrFun (V_v2 m c) _).trans ?_
  refine extractStridedSlice_apply _ _ _ _ _ (fun a => ?_)
  match a with
  | ⟨0, _⟩ => show o.val = 0 + (win0_1.index t 0 * 128 + 1 * o.val); rw [(idx1 t).1]; omega
  | ⟨1, _⟩ => show d.val = 0 + (win0_1.index t 1 * 128 + 1 * d.val); rw [(idx1 t).2]; omega

/-- The second weight block is the weight's columns 128–255. -/
theorem blk2 (c : Dev nD) (t : Fin cfg0.N) (o d : Fin 128) :
    (iblk m c 2 t : Vec Ideal S128x128 .bf16) (ix2 o d) = m ((c : Thread nD τ).loc main_arg3) (ix2 o (⟨128 + d.val, by omega⟩ : Fin 256)) := by
  unfold iblk
  rw [View.read_apply]
  show V m c main_v4 _ = _
  refine (congrFun (V_v4 m c) _).trans ?_
  refine extractStridedSlice_apply _ _ _ _ _ (fun a => ?_)
  match a with
  | ⟨0, _⟩ => show o.val = 0 + (win0_2.index t 0 * 128 + 1 * o.val); rw [(idx2 t).1]; omega
  | ⟨1, _⟩ => show 128 + d.val = 128 + (win0_2.index t 1 * 128 + 1 * d.val); rw [(idx2 t).2]; omega

/-- The bias block's one row is the bias. -/
theorem blk3 (c : Dev nD) (t : Fin cfg0.N) (o : Fin 128) :
    (iblk m c 3 t : Vec Ideal S1x128 .f32) (ix2 (0 : Fin 1) o) = m ((c : Thread nD τ).loc main_arg4) (ix1 o) := by
  unfold iblk
  rw [View.read_apply]
  show V m c main_v5 _ = _
  refine (congrFun (V_v5 m c) _).trans ?_
  refine (congrArg _ (funext fun a => Fin.ext ?_)).trans (shapeCast_a_1a_apply _ _ (0 : Fin 1) o)
  match a with
  | ⟨0, _⟩ => show win0_3.index t 0 * 1 + 1 * 0 = 0; rw [(idx3 t).1]
  | ⟨1, _⟩ => show win0_3.index t 1 * 128 + 1 * o.val = o.val; rw [(idx3 t).2]; omega

/-- The source tile at grid point `t` is columns `256 t + j` of the source incidence weights. -/
theorem blk4 (c : Dev nD) (t : Fin cfg0.N) (p : Fin 4096) (j : Fin 256) (h : 256 * t.val + j.val < 32768) :
    (iblk m c 4 t : Vec Ideal S4096x256 .f32) (ix2 p j) = m ((c : Thread nD τ).loc main_arg1) (ix2 p ⟨256 * t.val + j.val, h⟩) := by
  unfold iblk
  rw [View.read_apply]
  show V m c main_arg1 _ = _
  rw [V_main_arg1]
  refine congrArg (m ((c : Thread nD τ).loc main_arg1)) (funext fun a => Fin.ext ?_)
  match a with
  | ⟨0, _⟩ => show win0_4.index t 0 * 4096 + 1 * p.val = p.val; rw [(idx4 t).1]; omega
  | ⟨1, _⟩ => show win0_4.index t 1 * 256 + 1 * j.val = 256 * t.val + j.val; rw [(idx4 t).2]; omega

/-- The target tile at grid point `t` is columns `256 t + j` of the target incidence weights. -/
theorem blk5 (c : Dev nD) (t : Fin cfg0.N) (p : Fin 4096) (j : Fin 256) (h : 256 * t.val + j.val < 32768) :
    (iblk m c 5 t : Vec Ideal S4096x256 .f32) (ix2 p j) = m ((c : Thread nD τ).loc main_arg2) (ix2 p ⟨256 * t.val + j.val, h⟩) := by
  unfold iblk
  rw [View.read_apply]
  show V m c main_arg2 _ = _
  rw [V_main_arg2]
  refine congrArg (m ((c : Thread nD τ).loc main_arg2)) (funext fun a => Fin.ext ?_)
  match a with
  | ⟨0, _⟩ => show win0_5.index t 0 * 4096 + 1 * p.val = p.val; rw [(idx5 t).1]; omega
  | ⟨1, _⟩ => show win0_5.index t 1 * 256 + 1 * j.val = 256 * t.val + j.val; rw [(idx5 t).2]; omega

end Cert.Blocks

end
-- ==== Proof.Pieces.lean ====
/-
  What one run of the kernel body leaves in the output's staging block, as a value.

  The body stores the whole [1, 4096, 128] block once, last: the running block plus this tile's contribution, all of it
  one pure term of the six input blocks and of the block's previous contents. At the first tile of a half the body
  first stores the zero block and reads it back, so there the previous contents are the zero block; at every other
  tile they are what the tile before left.
-/
import proofs.«173912_j58995670778248_2_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.ShloMosaic.Tactic Idealize.SL.Sem
open Idealize.ShloMosaic.Pipeline (Dat)

namespace Cert.Pieces

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- A later tile of a half: over previous contents `xo6` the body leaves the arithmetic of the input blocks and `xo6`. -/
theorem out_B (c : Dev nD) (i : grid0.Coords) (arg2 : Memref sig .tc .vmem S4096x128 .bf16) (harg2 : arg2.IsWhole) (arg3 : Memref sig .tc .vmem S128x128 .bf16) (harg3 : arg3.IsWhole) (arg4 : Memref sig .tc .vmem S128x128 .bf16) (harg4 : arg4.IsWhole) (arg5 : Memref sig .tc .vmem S1x128 .f32) (harg5 : arg5.IsWhole) (arg6 : Memref sig .tc .vmem S4096x256 .f32) (harg6 : arg6.IsWhole) (arg7 : Memref sig .tc .vmem S4096x256 .f32) (harg7 : arg7.IsWhole) (arg8 : Memref sig .tc .vmem S1x4096x128 .f32) (harg8 : arg8.IsWhole) (hc0 : ¬cond0_0 i)
    (x0 : Vec F S4096x128 .bf16) (x1 : Vec F S128x128 .bf16) (x2 : Vec F S128x128 .bf16) (x3 : Vec F S1x128 .f32) (x4 : Vec F S4096x256 .f32) (x5 : Vec F S4096x256 .f32) (xo6 : Vec F S1x4096x128 .f32) :
    out0_B_6 c i arg2 harg2 arg3 harg3 arg4 harg4 arg5 harg5 arg6 harg6 arg7 harg7 arg8 harg8 hc0 x0 x1 x2 x3 x4 x5 xo6 = k0_pay1 (k0_pay3 x0 x4 x5 x1 x2 x3 xo6) := by
  unfold out0_B_6
  rw [View.read_writes_eq_canon _ _ _ (cover0_B_6 c i arg2 harg2 arg3 harg3 arg4 harg4 arg5 harg5 arg6 harg6 arg7 harg7 arg8 harg8 hc0 x0 x1 x2 x3 x4 x5 xo6)]
  unfold kernelRun0_B
  dsimp only
  sl_unfold_words
  rw [View.canon_unit_zero hz3]
  simp only [View.readAt_eq_ld, harg2.read_unread, harg3.read_unread, harg4.read_unread, harg5.read_unread, harg6.read_unread, harg7.read_unread, harg8.read_unread,
    View.ld_unit_zero (S := S4096x128) hz2, View.ld_unit_zero (S := S4096x256) hz2, View.ld_unit_zero (S := S128x128) hz2, View.ld_unit_zero (S := S1x128) hz2, View.ld_unit_zero (S := S1x4096x128) hz3]

/-- The first tile of a half: the same arithmetic over the zero block the body has just stored and read back. -/
theorem out_A (c : Dev nD) (i : grid0.Coords) (arg2 : Memref sig .tc .vmem S4096x128 .bf16) (harg2 : arg2.IsWhole) (arg3 : Memref sig .tc .vmem S128x128 .bf16) (harg3 : arg3.IsWhole) (arg4 : Memref sig .tc .vmem S128x128 .bf16) (harg4 : arg4.IsWhole) (arg5 : Memref sig .tc .vmem S1x128 .f32) (harg5 : arg5.IsWhole) (arg6 : Memref sig .tc .vmem S4096x256 .f32) (harg6 : arg6.IsWhole) (arg7 : Memref sig .tc .vmem S4096x256 .f32) (harg7 : arg7.IsWhole) (arg8 : Memref sig .tc .vmem S1x4096x128 .f32) (harg8 : arg8.IsWhole) (hc0 : cond0_0 i)
    (x0 : Vec F S4096x128 .bf16) (x1 : Vec F S128x128 .bf16) (x2 : Vec F S128x128 .bf16) (x3 : Vec F S1x128 .f32) (x4 : Vec F S4096x256 .f32) (x5 : Vec F S4096x256 .f32) :
    out0_A_6 c i arg2 harg2 arg3 harg3 arg4 harg4 arg5 harg5 arg6 harg6 arg7 harg7 arg8 harg8 hc0 x0 x1 x2 x3 x4 x5 = k0_pay1 (k0_pay3 x0 x4 x5 x1 x2 x3 k0_pay2) := by
  unfold out0_A_6
  rw [View.read_writes_eq_canon _ _ _ (cover0_A_6 c i arg2 harg2 arg3 harg3 arg4 harg4 arg5 harg5 arg6 harg6 arg7 harg7 arg8 harg8 hc0 x0 x1 x2 x3 x4 x5)]
  unfold kernelRun0_A
  dsimp only
  sl_unfold_words
  rw [View.canon_cons_unit_zero (S := S1x4096x128) hz3, View.readCov_unit_zero (S := S1x4096x128) _ hz3]
  simp only [View.readAt_eq_ld, harg2.read_unread, harg3.read_unread, harg4.read_unread, harg5.read_unread, harg6.read_unread, harg7.read_unread, harg8.read_unread,
    View.ld_unit_zero (S := S4096x128) hz2, View.ld_unit_zero (S := S4096x256) hz2, View.ld_unit_zero (S := S128x128) hz2, View.ld_unit_zero (S := S1x128) hz2, View.ld_unit_zero (S := S1x4096x128) hz3]

end Cert.Pieces

end
-- ==== Proof.TileValue.lean ====
/-
  One tile's contribution, from blocks.

  Let the six staged blocks be the feature array, columns `256 T … 256 T + 255` of the two incidence arrays, the two
  column halves of the weight, and the bias as one row. Then the sum over the tile's 256 edges `j` of
      tgtTile[n, j] · max ((∑ d, (∑ p, srcTile[p, j] · x[p, d]) · w₁[o, d] + ∑ d, (∑ p, tgtTile[p, j] · x[p, d]) · w₂[o, d]) + b[0, o]) 0
  is tile `T` of the specification's sum for `(n, o)`: term by term the same expression.
-/
import Idealize.ShloMosaic.PureOps.Ideal
import Idealize.ShloMosaic.Lib.ValueIdx
import proofs.«173912_j58995670778248_2_alg».proof.Proof.Spec

noncomputable section

namespace Cert.TileValue

open Idealize.ShloMosaic Idealize.ShloMosaic.ValueIdx Finset Cert.Spec

/-- The tile's sum over blocks that read the arguments at the tile's columns is the specification's tile. -/
theorem tile_of_blocks (x : SX.Idx → EReal) (src tgt : SA.Idx → EReal) (fw : SW.Idx → EReal) (fb : SB.Idx → EReal)
    (T : ℕ) (hT : T < 128)
    (v3 : (⟨2, ![4096, 128]⟩ : Shape).Idx → EReal) (v5 v7 : (⟨2, ![4096, 256]⟩ : Shape).Idx → EReal)
    (v13 v16 : (⟨2, ![128, 128]⟩ : Shape).Idx → EReal) (v20 : (⟨2, ![1, 128]⟩ : Shape).Idx → EReal)
    (h3 : ∀ (p : Fin 4096) (d : Fin 128), v3 (ix2 p d) = x (ix2 p d))
    (h5 : ∀ (p : Fin 4096) (j : Fin 256) (h : 256 * T + j.val < 32768), v5 (ix2 p j) = src (ix2 p ⟨256 * T + j.val, h⟩))
    (h7 : ∀ (p : Fin 4096) (j : Fin 256) (h : 256 * T + j.val < 32768), v7 (ix2 p j) = tgt (ix2 p ⟨256 * T + j.val, h⟩))
    (h13 : ∀ (o d : Fin 128), v13 (ix2 o d) = fw (ix2 o (lo d)))
    (h16 : ∀ (o d : Fin 128), v16 (ix2 o d) = fw (ix2 o (hi d)))
    (h20 : ∀ (o : Fin 128), v20 (ix2 (0 : Fin 1) o) = fb (ix1 o))
    (n : Fin 4096) (o : Fin 128) :
    ∑ j : Fin 256, v7 (ix2 n j) *
        max ((∑ d : Fin 128, (∑ p : Fin 4096, v5 (ix2 p j) * v3 (ix2 p d)) * v13 (ix2 o d)
            + ∑ d : Fin 128, (∑ p : Fin 4096, v7 (ix2 p j) * v3 (ix2 p d)) * v16 (ix2 o d))
           + v20 (ix2 (0 : Fin 1) o)) 0
      = tile x src tgt fw fb n o T := by
  unfold tile
  refine Finset.sum_congr rfl fun j _ => ?_
  have h : 256 * T + j.val < 32768 := by have := j.isLt; omega
  rw [term_of_lt x src tgt fw fb n o _ h]
  unfold edgeOut gathered
  simp only [h3, h5 _ j h, h7 _ j h, h13, h16, h20]

end Cert.TileValue

end
-- ==== Proof.BodyValue.lean ====
/-
  The kernel body's arithmetic at an index, over the extended reals.

  One tile of 256 edges is handled per step.  With x the node features (4096 × 128), a and t the two incidence tiles
  (4096 × 256), w₁ and w₂ the two halves of the weight (128 × 128 each), b the bias (1 × 128) and r the running output
  block (1 × 4096 × 128), the step's value at node n and feature o is
      r[0, n, o] + ∑ j, t[n, j] · max ((∑ d, (∑ p, a[p, j] · x[p, d]) · w₁[o, d] + ∑ d, (∑ p, t[p, j] · x[p, d]) · w₂[o, d]) + b[0, o]) 0.
  Three matrix products appear: the first contracts the node axis of a tile against the node axis of x (the tile is
  used transposed), the second contracts the feature axis of a gathered block against the input-feature axis of a
  weight half (the weight is used transposed), the third is a plain product.  Each is accumulated into the zero block
  and is, entry by entry, the sum over its one contraction coordinate.  Format changes are the identity on the
  extended reals; the reshapes only add or drop a leading axis of extent one; the bias row is repeated over the edges.
-/
import proofs.«173912_j58995670778248_2_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.BodyValue

open Cert.KernelIdeal Cert.KernelIdeal.Gen Idealize.ShloMosaic Idealize.ShloMosaic.ValueIdx

/-! ## The three matrix products, entry by entry -/

/-! ### A tile's node axis against the features' node axis
The operand coordinates the product's dimension record computes, axis by axis: the contracted axis reads the
contraction coordinate, a kept axis reads the output coordinate it becomes. -/
theorem gatherDot_lhs_0 (i : S256x128.Idx) (q : dot_S4096x256_S4096x128_S256x128_0_0_1_1_n_n.contr.Idx) :
    (dot_S4096x256_S4096x128_S256x128_0_0_1_1_n_n.lhsIdx i q 0).val = (q ⟨0, by decide⟩).val :=
  dot_S4096x256_S4096x128_S256x128_0_0_1_1_n_n.lhsIdx_val_of_single rfl i q
theorem gatherDot_lhs_1 (i : S256x128.Idx) (q : dot_S4096x256_S4096x128_S256x128_0_0_1_1_n_n.contr.Idx) :
    (dot_S4096x256_S4096x128_S256x128_0_0_1_1_n_n.lhsIdx i q 1).val = (i 0).val := by
  unfold DotDims.lhsIdx
  rw [dif_neg (show ¬(1 : Fin S4096x256.rank) ∈ dot_S4096x256_S4096x128_S256x128_0_0_1_1_n_n.lhsBatch by decide), dif_pos (show (1 : Fin S4096x256.rank) ∈ dot_S4096x256_S4096x128_S256x128_0_0_1_1_n_n.lhsNonContracting by decide)]
  rfl
theorem gatherDot_rhs_0 (i : S256x128.Idx) (q : dot_S4096x256_S4096x128_S256x128_0_0_1_1_n_n.contr.Idx) :
    (dot_S4096x256_S4096x128_S256x128_0_0_1_1_n_n.rhsIdx i q 0).val = (q ⟨0, by decide⟩).val :=
  dot_S4096x256_S4096x128_S256x128_0_0_1_1_n_n.rhsIdx_val_of_single rfl i q
theorem gatherDot_rhs_1 (i : S256x128.Idx) (q : dot_S4096x256_S4096x128_S256x128_0_0_1_1_n_n.contr.Idx) :
    (dot_S4096x256_S4096x128_S256x128_0_0_1_1_n_n.rhsIdx i q 1).val = (i 1).val := by
  unfold DotDims.rhsIdx
  rw [dif_neg (show ¬(1 : Fin S4096x128.rank) ∈ dot_S4096x256_S4096x128_S256x128_0_0_1_1_n_n.rhsBatch by decide), dif_pos (show (1 : Fin S4096x128.rank) ∈ dot_S4096x256_S4096x128_S256x128_0_0_1_1_n_n.rhsNonContracting by decide)]
  rfl

/-- Entry (j, d) of the gathered block: ∑ p, a[p, j] · x[p, d]. -/
theorem gatherDot_apply {φ₁ φ₂ : FTy} (a : FVec Ideal S4096x256 φ₁) (x : FVec Ideal S4096x128 φ₂) (j : Fin 256) (d : Fin 128) :
    matmul dot_S4096x256_S4096x128_S256x128_0_0_1_1_n_n none a x (constant (F := Ideal) S256x128 .f32 0x00000000#32) (ix2 j d)
      = ∑ p : Fin 4096, a (ix2 p j) * x (ix2 p d) := by
  show FloatOps.matmul _ _ _ _ _ _ = _
  rw [Ideal.matmul_constant_zero_apply, ← Equiv.sum_comp (contrEquiv1 dot_S4096x256_S4096x128_S256x128_0_0_1_1_n_n 4096 rfl rfl).symm]
  refine Finset.sum_congr rfl fun p _ => ?_
  have hk := contrEquiv1_symm_val dot_S4096x256_S4096x128_S256x128_0_0_1_1_n_n 4096 rfl rfl p
  have el : dot_S4096x256_S4096x128_S256x128_0_0_1_1_n_n.lhsIdx (ix2 j d) ((contrEquiv1 dot_S4096x256_S4096x128_S256x128_0_0_1_1_n_n 4096 rfl rfl).symm p) = ix2 p j := funext fun c => Fin.ext (by
    match c with
    | ⟨0, _⟩ => exact (gatherDot_lhs_0 _ _).trans hk
    | ⟨1, _⟩ => exact gatherDot_lhs_1 _ _)
  have er : dot_S4096x256_S4096x128_S256x128_0_0_1_1_n_n.rhsIdx (ix2 j d) ((contrEquiv1 dot_S4096x256_S4096x128_S256x128_0_0_1_1_n_n 4096 rfl rfl).symm p) = ix2 p d := funext fun c => Fin.ext (by
    match c with
    | ⟨0, _⟩ => exact (gatherDot_rhs_0 _ _).trans hk
    | ⟨1, _⟩ => exact gatherDot_rhs_1 _ _)
  rw [el, er]

/-! ### A gathered block's feature axis against a weight half's input-feature axis -/
theorem weightDot_lhs_0 (i : S256x128.Idx) (q : dot_S256x128_S128x128_S256x128_1_1_0_0_n_n.contr.Idx) :
    (dot_S256x128_S128x128_S256x128_1_1_0_0_n_n.lhsIdx i q 0).val = (i 0).val := by
  unfold DotDims.lhsIdx
  rw [dif_neg (show ¬(0 : Fin S256x128.rank) ∈ dot_S256x128_S128x128_S256x128_1_1_0_0_n_n.lhsBatch by decide), dif_pos (show (0 : Fin S256x128.rank) ∈ dot_S256x128_S128x128_S256x128_1_1_0_0_n_n.lhsNonContracting by decide)]
  rfl
theorem weightDot_lhs_1 (i : S256x128.Idx) (q : dot_S256x128_S128x128_S256x128_1_1_0_0_n_n.contr.Idx) :
    (dot_S256x128_S128x128_S256x128_1_1_0_0_n_n.lhsIdx i q 1).val = (q ⟨0, by decide⟩).val :=
  dot_S256x128_S128x128_S256x128_1_1_0_0_n_n.lhsIdx_val_of_single rfl i q
theorem weightDot_rhs_0 (i : S256x128.Idx) (q : dot_S256x128_S128x128_S256x128_1_1_0_0_n_n.contr.Idx) :
    (dot_S256x128_S128x128_S256x128_1_1_0_0_n_n.rhsIdx i q 0).val = (i 1).val := by
  unfold DotDims.rhsIdx
  rw [dif_neg (show ¬(0 : Fin S128x128.rank) ∈ dot_S256x128_S128x128_S256x128_1_1_0_0_n_n.rhsBatch by decide), dif_pos (show (0 : Fin S128x128.rank) ∈ dot_S256x128_S128x128_S256x128_1_1_0_0_n_n.rhsNonContracting by decide)]
  rfl
theorem weightDot_rhs_1 (i : S256x128.Idx) (q : dot_S256x128_S128x128_S256x128_1_1_0_0_n_n.contr.Idx) :
    (dot_S256x128_S128x128_S256x128_1_1_0_0_n_n.rhsIdx i q 1).val = (q ⟨0, by decide⟩).val :=
  dot_S256x128_S128x128_S256x128_1_1_0_0_n_n.rhsIdx_val_of_single rfl i q

/-- Entry (j, o) of a gathered block against a weight half: ∑ d, g[j, d] · w[o, d]. -/
theorem weightDot_apply {φ₁ φ₂ : FTy} (g : FVec Ideal S256x128 φ₁) (w : FVec Ideal S128x128 φ₂) (j : Fin 256) (o : Fin 128) :
    matmul dot_S256x128_S128x128_S256x128_1_1_0_0_n_n none g w (constant (F := Ideal) S256x128 .f32 0x00000000#32) (ix2 j o)
      = ∑ d : Fin 128, g (ix2 j d) * w (ix2 o d) := by
  show FloatOps.matmul _ _ _ _ _ _ = _
  rw [Ideal.matmul_constant_zero_apply, ← Equiv.sum_comp (contrEquiv1 dot_S256x128_S128x128_S256x128_1_1_0_0_n_n 128 rfl rfl).symm]
  refine Finset.sum_congr rfl fun d _ => ?_
  have hk := contrEquiv1_symm_val dot_S256x128_S128x128_S256x128_1_1_0_0_n_n 128 rfl rfl d
  have el : dot_S256x128_S128x128_S256x128_1_1_0_0_n_n.lhsIdx (ix2 j o) ((contrEquiv1 dot_S256x128_S128x128_S256x128_1_1_0_0_n_n 128 rfl rfl).symm d) = ix2 j d := funext fun c => Fin.ext (by
    match c with
    | ⟨0, _⟩ => exact weightDot_lhs_0 _ _
    | ⟨1, _⟩ => exact (weightDot_lhs_1 _ _).trans hk)
  have er : dot_S256x128_S128x128_S256x128_1_1_0_0_n_n.rhsIdx (ix2 j o) ((contrEquiv1 dot_S256x128_S128x128_S256x128_1_1_0_0_n_n 128 rfl rfl).symm d) = ix2 o d := funext fun c => Fin.ext (by
    match c with
    | ⟨0, _⟩ => exact weightDot_rhs_0 _ _
    | ⟨1, _⟩ => exact (weightDot_rhs_1 _ _).trans hk)
  rw [el, er]

/-! ### The plain product of a tile against the edge outputs -/
theorem scatterDot_lhs_0 (i : S4096x128.Idx) (q : dot_S4096x256_S256x128_S4096x128_1_0_0_1_n_n.contr.Idx) :
    (dot_S4096x256_S256x128_S4096x128_1_0_0_1_n_n.lhsIdx i q 0).val = (i 0).val := by
  unfold DotDims.lhsIdx
  rw [dif_neg (show ¬(0 : Fin S4096x256.rank) ∈ dot_S4096x256_S256x128_S4096x128_1_0_0_1_n_n.lhsBatch by decide), dif_pos (show (0 : Fin S4096x256.rank) ∈ dot_S4096x256_S256x128_S4096x128_1_0_0_1_n_n.lhsNonContracting by decide)]
  rfl
theorem scatterDot_lhs_1 (i : S4096x128.Idx) (q : dot_S4096x256_S256x128_S4096x128_1_0_0_1_n_n.contr.Idx) :
    (dot_S4096x256_S256x128_S4096x128_1_0_0_1_n_n.lhsIdx i q 1).val = (q ⟨0, by decide⟩).val :=
  dot_S4096x256_S256x128_S4096x128_1_0_0_1_n_n.lhsIdx_val_of_single rfl i q
theorem scatterDot_rhs_0 (i : S4096x128.Idx) (q : dot_S4096x256_S256x128_S4096x128_1_0_0_1_n_n.contr.Idx) :
    (dot_S4096x256_S256x128_S4096x128_1_0_0_1_n_n.rhsIdx i q 0).val = (q ⟨0, by decide⟩).val :=
  dot_S4096x256_S256x128_S4096x128_1_0_0_1_n_n.rhsIdx_val_of_single rfl i q
theorem scatterDot_rhs_1 (i : S4096x128.Idx) (q : dot_S4096x256_S256x128_S4096x128_1_0_0_1_n_n.contr.Idx) :
    (dot_S4096x256_S256x128_S4096x128_1_0_0_1_n_n.rhsIdx i q 1).val = (i 1).val := by
  unfold DotDims.rhsIdx
  rw [dif_neg (show ¬(1 : Fin S256x128.rank) ∈ dot_S4096x256_S256x128_S4096x128_1_0_0_1_n_n.rhsBatch by decide), dif_pos (show (1 : Fin S256x128.rank) ∈ dot_S4096x256_S256x128_S4096x128_1_0_0_1_n_n.rhsNonContracting by decide)]
  rfl

/-- Entry (n, o) of the tile against the edge outputs: ∑ j, t[n, j] · e[j, o]. -/
theorem scatterDot_apply {φ₁ φ₂ : FTy} (t : FVec Ideal S4096x256 φ₁) (e : FVec Ideal S256x128 φ₂) (n : Fin 4096) (o : Fin 128) :
    matmul dot_S4096x256_S256x128_S4096x128_1_0_0_1_n_n none t e (constant (F := Ideal) S4096x128 .f32 0x00000000#32) (ix2 n o)
      = ∑ j : Fin 256, t (ix2 n j) * e (ix2 j o) := by
  show FloatOps.matmul _ _ _ _ _ _ = _
  rw [Ideal.matmul_constant_zero_apply, ← Equiv.sum_comp (contrEquiv1 dot_S4096x256_S256x128_S4096x128_1_0_0_1_n_n 256 rfl rfl).symm]
  refine Finset.sum_congr rfl fun j _ => ?_
  have hk := contrEquiv1_symm_val dot_S4096x256_S256x128_S4096x128_1_0_0_1_n_n 256 rfl rfl j
  have el : dot_S4096x256_S256x128_S4096x128_1_0_0_1_n_n.lhsIdx (ix2 n o) ((contrEquiv1 dot_S4096x256_S256x128_S4096x128_1_0_0_1_n_n 256 rfl rfl).symm j) = ix2 n j := funext fun c => Fin.ext (by
    match c with
    | ⟨0, _⟩ => exact scatterDot_lhs_0 _ _
    | ⟨1, _⟩ => exact (scatterDot_lhs_1 _ _).trans hk)
  have er : dot_S4096x256_S256x128_S4096x128_1_0_0_1_n_n.rhsIdx (ix2 n o) ((contrEquiv1 dot_S4096x256_S256x128_S4096x128_1_0_0_1_n_n 256 rfl rfl).symm j) = ix2 j o := funext fun c => Fin.ext (by
    match c with
    | ⟨0, _⟩ => exact (scatterDot_rhs_0 _ _).trans hk
    | ⟨1, _⟩ => exact scatterDot_rhs_1 _ _)
  rw [el, er]

/-! ## The three payloads -/

/-- The zero block, given a leading axis of extent one, is zero everywhere. -/
theorem pay2_apply (n : Fin 4096) (o : Fin 128) : k0_pay2 (F := Ideal) (ix3 (0 : Fin 1) n o) = 0 := by
  unfold k0_pay2
  refine (shapeCast_ab_1ab_apply _ _ (0 : Fin 1) n o).trans ?_
  exact Ideal.ofBits_zero_f32

/-- A block given a leading axis of extent one reads, at (0, n, o), the block at (n, o). -/
theorem pay1_apply (v30 : FVec Ideal S4096x128 .f32) (n : Fin 4096) (o : Fin 128) :
    k0_pay1 (F := Ideal) v30 (ix3 (0 : Fin 1) n o) = v30 (ix2 n o) := by
  unfold k0_pay1
  exact shapeCast_ab_1ab_apply v30 _ (0 : Fin 1) n o

/-- Entry (j, d) of a tile's gathered block, the tile's format change and the features' same-shape reshape removed. -/
theorem gathered_apply (a : Vec Ideal S4096x256 .f32) (v3 : Vec Ideal S4096x128 .bf16) (j : Fin 256) (d : Fin 128) :
    (truncf .bf16 (matmul dot_S4096x256_S4096x128_S256x128_0_0_1_1_n_n none (truncf .bf16 a bitsLt_bf16_f32 : FVec Ideal S4096x256 .bf16)
        (shapeCast S4096x128 v3 shapeCasts_S4096x128_S4096x128 : FVec Ideal S4096x128 .bf16)
        (constant (F := Ideal) S256x128 .f32 0x00000000#32)) bitsLt_bf16_f32 : FVec Ideal S256x128 .bf16) (ix2 j d)
      = ∑ p : Fin 4096, a (ix2 p j) * v3 (ix2 p d) := by
  refine (truncf_apply (φ := .f32) (ψ := .bf16) _ bitsLt_bf16_f32 (ix2 j d)).trans ?_
  refine (gatherDot_apply _ _ j d).trans ?_
  refine Finset.sum_congr rfl fun p _ => ?_
  refine congrArg₂ (· * ·) rfl ?_
  exact congrFun (shapeCast_self v3 _) _

/-- Entry (j, o) of one side of the linear layer: the gathered block against its weight half (the weight's same-shape
    reshape removed). -/
theorem side_apply (a : Vec Ideal S4096x256 .f32) (v3 : Vec Ideal S4096x128 .bf16) (w : Vec Ideal S128x128 .bf16) (j : Fin 256) (o : Fin 128) :
    matmul dot_S256x128_S128x128_S256x128_1_1_0_0_n_n none
        (truncf .bf16 (matmul dot_S4096x256_S4096x128_S256x128_0_0_1_1_n_n none (truncf .bf16 a bitsLt_bf16_f32 : FVec Ideal S4096x256 .bf16)
          (shapeCast S4096x128 v3 shapeCasts_S4096x128_S4096x128 : FVec Ideal S4096x128 .bf16)
          (constant (F := Ideal) S256x128 .f32 0x00000000#32)) bitsLt_bf16_f32 : FVec Ideal S256x128 .bf16)
        (shapeCast S128x128 w shapeCasts_S128x128_S128x128 : FVec Ideal S128x128 .bf16)
        (constant (F := Ideal) S256x128 .f32 0x00000000#32) (ix2 j o)
      = ∑ d : Fin 128, (∑ p : Fin 4096, a (ix2 p j) * v3 (ix2 p d)) * w (ix2 o d) := by
  refine (weightDot_apply _ _ j o).trans ?_
  refine Finset.sum_congr rfl fun d _ => ?_
  refine congrArg₂ (· * ·) (gathered_apply a v3 j d) ?_
  exact congrFun (shapeCast_self w _) _

/-- The step's value at node n and feature o: the running block there plus the tile's 256 edge terms. -/
theorem pay3_apply (v3 : Vec Ideal S4096x128 .bf16) (v5 v7 : Vec Ideal S4096x256 .f32) (v13 v16 : Vec Ideal S128x128 .bf16)
    (v20 : Vec Ideal S1x128 .f32) (v28 : Vec Ideal S1x4096x128 .f32) (n : Fin 4096) (o : Fin 128) :
    k0_pay3 (F := Ideal) v3 v5 v7 v13 v16 v20 v28 (ix2 n o)
      = v28 (ix3 (0 : Fin 1) n o)
        + ∑ j : Fin 256, v7 (ix2 n j) *
            max ((∑ d : Fin 128, (∑ p : Fin 4096, v5 (ix2 p j) * v3 (ix2 p d)) * v13 (ix2 o d)
                + ∑ d : Fin 128, (∑ p : Fin 4096, v7 (ix2 p j) * v3 (ix2 p d)) * v16 (ix2 o d))
               + v20 (ix2 (0 : Fin 1) o)) 0 := by
  unfold k0_pay3
  refine (addf_apply _ _ _).trans ?_
  refine congrArg₂ (· + ·) (shapeCast_1ab_ab_apply v28 _ n o) ?_
  refine (scatterDot_apply _ _ n o).trans ?_
  refine Finset.sum_congr rfl fun j _ => ?_
  refine congrArg₂ (· * ·) rfl ?_
  refine (truncf_apply (φ := .f32) (ψ := .bf16) _ bitsLt_bf16_f32 (ix2 j o)).trans ?_
  refine (maximumf_apply _ _ _).trans ?_
  refine congrArg₂ max ?_ Ideal.ofBits_zero_f32
  refine (addf_apply _ _ _).trans ?_
  refine congrArg₂ (· + ·) ?_ ?_
  · refine (addf_apply _ _ _).trans ?_
    exact congrArg₂ (· + ·) (side_apply v5 v3 v13 j o) (side_apply v7 v3 v16 j o)
  · refine (broadcastTo_1b_ab_apply _ _ j o).trans ?_
    exact congrFun (shapeCast_self v20 _) _

end Cert.BodyValue

end
-- ==== Proof.Invariant.lean ====
/-
  What the output's staging block holds after each grid point: the running sum of the tiles done so far in the half.

  Grid point `t` (0 … 127) is tile `t % 64` of half `t / 64`. After it, entry `(0, n, o)` of the staged block is the
  sum over the half's first `t % 64 + 1` tiles of `tgt[n, E] · edgeOut E o`: at the half's first tile the body adds the
  tile's sum to the zero block, at every later tile to what the tile before left. By induction on the grid point.
-/
import proofs.«173912_j58995670778248_2_alg».proof.Proof.Gen.KernelIdeal.Frame
import Idealize.ShloMosaic.Lib.Pipeline.Value
import Idealize.ShloMosaic.Lib.Tactic
import Idealize.ShloMosaic.Lib.ValueIdx
import Idealize.ShloMosaic.Lib.ValueLayout
import Idealize.ShloMosaic.PureOps.Ideal
import Idealize.ShloMosaic.PureOps.Ideal.Laws
import proofs.«173912_j58995670778248_2_alg».proof.Proof.Spec
import proofs.«173912_j58995670778248_2_alg».proof.Proof.Blocks
import proofs.«173912_j58995670778248_2_alg».proof.Proof.Pieces
import proofs.«173912_j58995670778248_2_alg».proof.Proof.TileValue
import proofs.«173912_j58995670778248_2_alg».proof.Proof.BodyValue

set_option maxRecDepth 16384

noncomputable section

open Idealize.ShloMosaic Idealize.ShloMosaic.TcCoe Idealize.ShloMosaic.Tactic Idealize.SL.Sem
open Idealize.ShloMosaic.Pipeline (Dat)

namespace Cert.Invariant

open Cert.KernelIdeal Cert.KernelIdeal.Gen

open Idealize.ShloMosaic.ValueIdx

variable (m : (ℓ : Loc nD τ sig) → Buf (Elt Ideal) ℓ)

/-- The five argument arrays as launched, on core `c`: features, source and target incidence weights, weight, bias. -/
abbrev X (c : Dev nD) : Cert.Spec.SX.Idx → EReal := m ((c : Thread nD τ).loc main_arg0)
abbrev SRC (c : Dev nD) : Cert.Spec.SA.Idx → EReal := m ((c : Thread nD τ).loc main_arg1)
abbrev TGT (c : Dev nD) : Cert.Spec.SA.Idx → EReal := m ((c : Thread nD τ).loc main_arg2)
abbrev FW (c : Dev nD) : Cert.Spec.SW.Idx → EReal := m ((c : Thread nD τ).loc main_arg3)
abbrev FB (c : Dev nD) : Cert.Spec.SB.Idx → EReal := m ((c : Thread nD τ).loc main_arg4)

/-- One run of the body at grid point `t` over previous contents `acc` adds tile `t` of the specification's sum. -/
theorem step (c : Dev nD) (t : Fin cfg0.N) (acc : Vec Ideal S1x4096x128 .f32) (n : Fin 4096) (o : Fin 128) :
    k0_pay1 (F := Ideal) (k0_pay3 (iblk m c 0 t) (iblk m c 4 t) (iblk m c 5 t) (iblk m c 1 t) (iblk m c 2 t) (iblk m c 3 t) acc) (ix3 (0 : Fin 1) n o)
      = acc (ix3 (0 : Fin 1) n o) + Cert.Spec.tile (X m c) (SRC m c) (TGT m c) (FW m c) (FB m c) n o t.val := by
  have hN : t.val < 128 := lt_of_lt_of_eq t.isLt (show cfg0.N = 128 from N_0)
  refine (Cert.BodyValue.pay1_apply (k0_pay3 (iblk m c 0 t) (iblk m c 4 t) (iblk m c 5 t) (iblk m c 1 t) (iblk m c 2 t) (iblk m c 3 t) acc) n o).trans ?_
  refine (Cert.BodyValue.pay3_apply (iblk m c 0 t) (iblk m c 4 t) (iblk m c 5 t) (iblk m c 1 t) (iblk m c 2 t) (iblk m c 3 t) acc n o).trans ?_
  refine congrArg (fun z => acc (ix3 (0 : Fin 1) n o) + z) ?_
  exact Cert.TileValue.tile_of_blocks (X m c) (SRC m c) (TGT m c) (FW m c) (FB m c) t.val hN (iblk m c 0 t) (iblk m c 4 t) (iblk m c 5 t) (iblk m c 1 t) (iblk m c 2 t) (iblk m c 3 t)
    (Cert.Blocks.blk0 m c t) (Cert.Blocks.blk4 m c t) (Cert.Blocks.blk5 m c t) (Cert.Blocks.blk1 m c t) (Cert.Blocks.blk2 m c t)
    (Cert.Blocks.blk3 m c t) n o

/-- At the first tile of a half the block ends at zero plus the tile. -/
theorem at_first (c : Dev nD) (t : Fin cfg0.N) (h0 : t.val % 64 = 0) (n : Fin 4096) (o : Fin 128) :
    (outsAt0 m c t.val t.isLt : Vec Ideal S1x4096x128 .f32) (ix3 (0 : Fin 1) n o)
      = 0 + Cert.Spec.tile (X m c) (SRC m c) (TGT m c) (FW m c) (FB m c) n o t.val := by
  refine (congrFun (outsAt0_A m c t h0) _).trans ?_
  refine (congrFun (Cert.Pieces.out_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) ((hcond0_0 t).mpr h0) (iblk m c 0 t) (iblk m c 1 t) (iblk m c 2 t) (iblk m c 3 t) (iblk m c 4 t) (iblk m c 5 t)) _).trans ?_
  refine (step m c t (k0_pay2 (F := Ideal)) n o).trans ?_
  rw [Cert.BodyValue.pay2_apply]

/-- At a later tile the block ends at what the tile before left plus the tile. -/
theorem at_later (c : Dev nD) (t : Fin cfg0.N) (h0 : ¬t.val % 64 = 0) (n : Fin 4096) (o : Fin 128) :
    (outsAt0 m c t.val t.isLt : Vec Ideal S1x4096x128 .f32) (ix3 (0 : Fin 1) n o)
      = (outsAt0 m c (t.val - 1) (Nat.lt_of_le_of_lt (Nat.sub_le _ _) t.isLt) : Vec Ideal S1x4096x128 .f32) (ix3 (0 : Fin 1) n o)
        + Cert.Spec.tile (X m c) (SRC m c) (TGT m c) (FW m c) (FB m c) n o t.val := by
  refine (congrFun (outsAt0_B m c t h0) _).trans ?_
  refine (congrFun (Cert.Pieces.out_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (fun h => h0 ((hcond0_0 t).mp h)) (iblk m c 0 t) (iblk m c 1 t) (iblk m c 2 t) (iblk m c 3 t) (iblk m c 4 t) (iblk m c 5 t)
    (outsAt0 m c (t.val - 1) (Nat.lt_of_le_of_lt (Nat.sub_le _ _) t.isLt))) _).trans ?_
  exact step m c t _ n o

/-- The running sum, by induction on the grid point. -/
theorem outsAt_nat (c : Dev nD) (n : Fin 4096) (o : Fin 128) : ∀ (k : ℕ) (h : k < cfg0.N),
    (outsAt0 m c k h : Vec Ideal S1x4096x128 .f32) (ix3 (0 : Fin 1) n o)
      = Cert.Spec.upTo (X m c) (SRC m c) (TGT m c) (FW m c) (FB m c) n o (k / 64) (k % 64)
  | 0, h => by
    refine (at_first m c ⟨0, h⟩ rfl n o).trans ?_
    exact (Cert.Spec.upTo_zero (X m c) (SRC m c) (TGT m c) (FW m c) (FB m c) n o 0).symm
  | k + 1, h => by
    by_cases h0 : (k + 1) % 64 = 0
    · refine (at_first m c ⟨k + 1, h⟩ h0 n o).trans ?_
      have hk : k + 1 = 64 * ((k + 1) / 64) := by omega
      rw [h0, Cert.Spec.upTo_zero, ← hk]
    · refine (at_later m c ⟨k + 1, h⟩ h0 n o).trans ?_
      have ih := outsAt_nat c n o k (Nat.lt_of_succ_lt h)
      have e1 : (k + 1) / 64 = k / 64 := by omega
      have e2 : (k + 1) % 64 = k % 64 + 1 := by omega
      have e3 : k + 1 = 64 * (k / 64) + (k % 64 + 1) := by omega
      rw [e1, e2, Cert.Spec.upTo_succ, ← e3]
      exact congrArg (· + Cert.Spec.tile (X m c) (SRC m c) (TGT m c) (FW m c) (FB m c) n o (k + 1)) ih

/-- After grid point `t` the staged output block holds, at `(0, n, o)`, the half's running sum. -/
theorem outsAt_apply (c : Dev nD) (t : Fin cfg0.N) (n : Fin 4096) (o : Fin 128) :
    (outsAt0 m c t.val t.isLt : Vec Ideal S1x4096x128 .f32) (ix3 (0 : Fin 1) n o)
      = Cert.Spec.upTo (X m c) (SRC m c) (TGT m c) (FW m c) (FB m c) n o (t.val / 64) (t.val % 64) :=
  outsAt_nat m c n o t.val t.isLt

end Cert.Invariant

end
-- ==== Proof.Final.lean ====
/-
  From the staged output blocks to the result array, then the host operations after the region.

  The region's output array has two slabs of 4096 x 128, one per half of the edges. Grid point t is tile t % 64 of
  half t / 64, and the staged block is written back to slab t / 64 after the half's last tile only (t % 64 = 63), when
  it holds the half's full sum. So slab h of the array ends holding the sum over half h's 16384 edges. After the
  region the host takes the two slabs, drops their leading unit axis and adds them: the sum over all 32768 edges.
-/
import proofs.«173912_j58995670778248_2_alg».proof.Proof.Gen.KernelIdeal.Frame
import Idealize.ShloMosaic.Lib.Pipeline.Value
import Idealize.ShloMosaic.Lib.Tactic
import Idealize.ShloMosaic.Lib.ValueIdx
import Idealize.ShloMosaic.Lib.ValueLayout
import Idealize.ShloMosaic.PureOps.Ideal
import Idealize.ShloMosaic.PureOps.Ideal.Laws
import Idealize.ShloMosaic.Lib.StableHlo.Run
import proofs.«173912_j58995670778248_2_alg».proof.Proof.Spec
import proofs.«173912_j58995670778248_2_alg».proof.Proof.Blocks
import proofs.«173912_j58995670778248_2_alg».proof.Proof.Invariant

set_option maxRecDepth 16384

noncomputable section

open Idealize.ShloMosaic Idealize.ShloMosaic.TcCoe Idealize.ShloMosaic.Tactic Idealize.SL.Sem
open Idealize.ShloMosaic.Pipeline (Dat)

namespace Cert.Final

open Cert.KernelIdeal Cert.KernelIdeal.Gen Idealize.ShloMosaic.ValueIdx Cert.Invariant

variable (m : (ℓ : Loc nD τ sig) → Buf (Elt Ideal) ℓ) (ρ : Dev nD → PrngReg)

/-! ## What the output array ends holding -/

/-- Slab h of the output array: at (h, n, o), the sum over half h's 16384 edges. -/
def slab (c : Dev nD) : S2x4096x128.Idx → EReal := fun i =>
  Cert.Spec.upTo (X m c) (SRC m c) (TGT m c) (FW m c) (FB m c) (i 1) (i 2) (i 0).val 63

/-- Entry (0, n, o) of grid point t's block is entry (t / 64, n, o) of the array. -/
theorem emb6 (t : Fin cfg0.N) (n : Fin 4096) (o : Fin 128) (h : t.val / 64 < 2) :
    ((cfg0.win 6).blk t).view.emb (ix3 (0 : Fin 1) n o) = (ix3 (⟨t.val / 64, h⟩ : Fin 2) n o : S2x4096x128.Idx) := by
  funext a
  apply Fin.ext
  match a with
  | ⟨0, _⟩ => show win0_6.index t 0 * 1 + 1 * 0 = t.val / 64; rw [(Cert.Blocks.idx6 t).1]; omega
  | ⟨1, _⟩ => show win0_6.index t 1 * 4096 + 1 * n.val = n.val; rw [(Cert.Blocks.idx6 t).2.1]; omega
  | ⟨2, _⟩ => show win0_6.index t 2 * 128 + 1 * o.val = o.val; rw [(Cert.Blocks.idx6 t).2.2]; omega

/-- Any contents of the array, read through grid point t's block at (0, n, o), are its entry (t / 64, n, o). -/
theorem read6 (S : S2x4096x128.Idx → EReal) (t : Fin cfg0.N) (n : Fin 4096) (o : Fin 128) (h : t.val / 64 < 2) :
    ((cfg0.win 6).blk t).view.read (Elt Ideal) S (ix3 (0 : Fin 1) n o) = S (ix3 (⟨t.val / 64, h⟩ : Fin 2) n o) := by
  rw [View.read_apply]
  show S _ = _
  rw [emb6 t n o h]

/-- What a write-back writes is its block of the slabs: it happens after a half's last tile, when the staged block
    holds the half's full sum. -/
theorem flushed6_eq (c : Dev nD) (t : Fin cfg0.N) (hf : (cfg0.win 6).flush t = true) :
    (dats m 0 c).flushed 6 t = ((cfg0.win 6).blk t).view.read (Elt Ideal) (slab m c) := by
  have h63 : t.val % 64 = 63 := (flush0_6 t).mp hf
  have hN : t.val < 128 := lt_of_lt_of_eq t.isLt (show cfg0.N = 128 from N_0)
  show (cfg0.win 6).cut (grid0.coords t) ((dats m 0 c).after 6 t) = _
  rw [after0_6]
  show (outsAt0 m c t.val t.isLt : Vec Ideal S1x4096x128 .f32) = ((cfg0.win 6).blk t).view.read (Elt Ideal) (slab m c)
  funext y
  obtain ⟨a, n, o, rfl⟩ : ∃ (a : Fin 1) (n : Fin 4096) (o : Fin 128), y = ix3 a n o := ⟨y 0, y 1, y 2, eq_ix3 y⟩
  obtain rfl : a = 0 := Subsingleton.elim _ _
  refine (outsAt_apply m c t n o).trans ?_
  rw [read6 (slab m c) t n o (by omega), h63]
  rfl

/-- An index of the array is in grid point t's block iff each coordinate is in the block's range on its axis. -/
theorem mem_blk6 (t : Fin cfg0.N) (i : S2x4096x128.Idx) :
    i ∈ ((cfg0.win 6).blk t).view.set ↔ ∀ a : Fin 3, win0_6.index t a * S1x4096x128.size a ≤ (i a).val ∧ (i a).val < win0_6.index t a * S1x4096x128.size a + S1x4096x128.size a := by
  show i ∈ ((View.whole main_v6).slice (win0_6.rect t)).set ↔ _
  rw [View.set_slice_whole, Rect.mem_set_unit]
  exact Iff.rfl

/-- Every index (h, n, o) of the array is in the block written back after half h's last tile, grid point 64 h + 63. -/
theorem cover6 (i : S2x4096x128.Idx) :
    ∃ t : Fin cfg0.N, (cfg0.win 6).flush t = true ∧ i ∈ ((cfg0.win 6).blk t).view.set := by
  have h0 : (i 0).val < 2 := (i 0).isLt
  have h1 : (i 1).val < 4096 := (i 1).isLt
  have h2 : (i 2).val < 128 := (i 2).isLt
  have hN : cfg0.N = 128 := N_0
  obtain ⟨t, et⟩ : ∃ t : Fin cfg0.N, t.val = 64 * (i 0).val + 63 := ⟨⟨64 * (i 0).val + 63, by omega⟩, rfl⟩
  refine ⟨t, (flush0_6 t).mpr (by omega), ?_⟩
  rw [mem_blk6]
  obtain ⟨e0, e1, e2⟩ := Cert.Blocks.idx6 t
  intro a
  match a with
  | ⟨0, _⟩ => show win0_6.index t 0 * 1 ≤ (i 0).val ∧ (i 0).val < win0_6.index t 0 * 1 + 1; rw [e0]; omega
  | ⟨1, _⟩ => show win0_6.index t 1 * 4096 ≤ (i 1).val ∧ (i 1).val < win0_6.index t 1 * 4096 + 4096; rw [e1]; omega
  | ⟨2, _⟩ => show win0_6.index t 2 * 128 ≤ (i 2).val ∧ (i 2).val < win0_6.index t 2 * 128 + 128; rw [e2]; omega

/-- So the output array ends holding the two halves' sums. -/
theorem final6 (c : Dev nD) : (dats m 0 c).arrAt 6 cfg0.N = slab m c :=
  (dats m 0 c).arrAt_eq_of_cover 6 (slab m c) (flushed6_eq m c) cover6

/-! ## The host operations after the region -/

/-- The first slab, its leading unit axis dropped, at (n, o). -/
theorem half0_apply (A : S2x4096x128.Idx → EReal) (hs : S2x4096x128.Slices ![0, 0, 0] S1x4096x128)
    (hc : S1x4096x128.ShapeCasts S4096x128) (n : Fin 4096) (o : Fin 128) :
    shapeCast S4096x128 (extractStridedSlice S1x4096x128 ![0, 0, 0] A hs) hc (ix2 n o) = A (ix3 (0 : Fin 2) n o) := by
  rw [shapeCast_1ab_ab_apply]
  refine extractStridedSlice_apply _ _ _ _ _ (fun a => ?_)
  match a with
  | ⟨0, _⟩ => rfl
  | ⟨1, _⟩ => show n.val = 0 + n.val; omega
  | ⟨2, _⟩ => show o.val = 0 + o.val; omega

/-- The second slab, its leading unit axis dropped, at (n, o). -/
theorem half1_apply (A : S2x4096x128.Idx → EReal) (hs : S2x4096x128.Slices ![1, 0, 0] S1x4096x128)
    (hc : S1x4096x128.ShapeCasts S4096x128) (n : Fin 4096) (o : Fin 128) :
    shapeCast S4096x128 (extractStridedSlice S1x4096x128 ![1, 0, 0] A hs) hc (ix2 n o) = A (ix3 (1 : Fin 2) n o) := by
  rw [shapeCast_1ab_ab_apply]
  refine extractStridedSlice_apply _ _ _ _ _ (fun a => ?_)
  match a with
  | ⟨0, _⟩ => rfl
  | ⟨1, _⟩ => show n.val = 0 + n.val; omega
  | ⟨2, _⟩ => show o.val = 0 + o.val; omega

/-- The host adds the two slabs: the sum over all the edges. -/
theorem result_eq (c : Dev nD) :
    Pipeline.afterTail₀ cfgs (dats m) 0 (V0 m) [hostOps1] c main_v11
      = fun i => Cert.Spec.G (X m c) (SRC m c) (TGT m c) (FW m c) (FB m c) (i 0) (i 1) := by
  unfold Pipeline.afterTail₀
  show StableHlo.after hostOps1 _ (Proc.devRef .tc main_v11) = _
  after_results
  have hA : Pipeline.withArrays (cfgs 0).spec c (V0 m c) (fun w => (dats m 0 c).arrAt w (cfgs 0).N) (Proc.devRef .tc main_v6)
      = slab m c := (Pipeline.withArrays_arr spec0 launch0.win.arr_inj c _ _ 6).trans (final6 m c)
  rw [hA]
  funext i
  obtain ⟨n, o, rfl⟩ : ∃ (n : Fin 4096) (o : Fin 128), i = ix2 n o := ⟨i 0, i 1, eq_ix2 i⟩
  show shapeCast S4096x128 (extractStridedSlice S1x4096x128 ![0, 0, 0] (slab m c) slices_S2x4096x128_S1x4096x128_0_0_0) shapeCasts_S1x4096x128_S4096x128 (ix2 n o)
      + shapeCast S4096x128 (extractStridedSlice S1x4096x128 ![1, 0, 0] (slab m c) slices_S2x4096x128_S1x4096x128_1_0_0) shapeCasts_S1x4096x128_S4096x128 (ix2 n o)
      = Cert.Spec.G (X m c) (SRC m c) (TGT m c) (FW m c) (FB m c) n o
  rw [half0_apply, half1_apply]
  exact (Cert.Spec.G_eq_halves (X m c) (SRC m c) (TGT m c) (FW m c) (FB m c) n o).symm

/-! ## The run, read -/

/-- At the compiled mesh, from any memory with zero counters: every weakly fair execution terminates with the result
    array at G of the arguments as launched, and the five arguments unchanged. -/
theorem run : θ_run defs (onTc (τ := τ) (main (F := Ideal))) ⟨m, fun _ => 0, ρ⟩ fun r => ∀ c : Dev nD,
      r.2.mem ((c.tc : Thread nD τ).loc main_v11) = (fun i => Cert.Spec.G (X m c) (SRC m c) (TGT m c) (FW m c) (FB m c) (i 0) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨((h c).2 main_v11 (Pipeline.mem_restRefs_of main_v11 (by decide) (by decide))).trans (result_eq m c),
      (((h c).2 main_arg0 (Pipeline.mem_restRefs_of main_arg0 (by decide) (by decide))).trans (W_main_arg0 m (dats m) c)),
      ((h c).1 4).trans (((dats m 0 c).arrAt_in 4 rfl _).trans ((A_eq m c 4).trans (V_main_arg1 m c))),
      ((h c).1 5).trans (((dats m 0 c).arrAt_in 5 rfl _).trans ((A_eq m c 5).trans (V_main_arg2 m c))),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c))⟩) (run_main m ρ)

end Cert.Final

end
-- ==== Proof.lean ====
/-
  A message-passing layer on a graph given by dense incidence weights, computed two ways and shown equal over the
  extended reals.

  Node features `x[n, d]` are gathered onto the edges through `src` and `tgt` (`∑ n, src[n, E] · x[n, d]` and the same
  with `tgt`), passed through one linear layer `fw` (its columns 0–127 acting on the source side, 128–255 on the target
  side) with bias `fb` and a rectifier, and scattered back to the nodes through `tgt`:
      G n o = ∑ E, tgt[n, E] · max ((∑ d, gathered src E d · fw[o, d] + ∑ d, gathered tgt E d · fw[o, 128 + d]) + fb[o]) 0.
  The reference computes this with whole-array products: it joins the two gathered arrays side by side and multiplies by
  the transposed weight, so its inner sum runs over 256 columns at once. The kernel walks the 32768 edges in 128 tiles
  of 256, 64 tiles to each of two halves; within a tile it forms the two gathered blocks, the two half-weight products,
  the rectified edge outputs and the tile's scatter product, and adds that to a per-half running block started at zero;
  the two halves' blocks are added at the end. The two differ only in how sums are grouped — 256 = 128 + 128 columns,
  32768 = 2 · 64 · 256 edges — which is commutativity and associativity of addition, valid for every extended real:
  the finiteness of the inputs is never used. Changes of float format are the identity on extended reals.

  The modules: Spec (the function `G` and its tile-wise partial sums), RefIsSpec (the reference's value is `G`),
  BodyValue (the kernel body's arithmetic at an index), Pieces (what one run of the body leaves in the staged output
  block), Blocks (the staged input blocks read at an index of the arguments), TileValue (one tile's contribution),
  Invariant (the staged block after each grid point is the half's running sum), Final (the result array after the
  run, and the halves added by the host).
-/
import proofs.«173912_j58995670778248_2_alg».proof.Defs
import proofs.«173912_j58995670778248_2_alg».proof.Proof.Gen.Kernel
import proofs.«173912_j58995670778248_2_alg».proof.Proof.Gen.Kernel.Skeleton
import proofs.«173912_j58995670778248_2_alg».proof.Proof.Gen.Kernel.Launch
import proofs.«173912_j58995670778248_2_alg».proof.Proof.Gen.Kernel.Points
import proofs.«173912_j58995670778248_2_alg».proof.Proof.Gen.Kernel.Frame
import proofs.«173912_j58995670778248_2_alg».proof.Proof.Gen.KernelIdeal
import proofs.«173912_j58995670778248_2_alg».proof.Proof.Gen.KernelIdeal.Skeleton
import proofs.«173912_j58995670778248_2_alg».proof.Proof.Gen.KernelIdeal.Launch
import proofs.«173912_j58995670778248_2_alg».proof.Proof.Gen.KernelIdeal.Points
import proofs.«173912_j58995670778248_2_alg».proof.Proof.Gen.KernelIdeal.Frame
import proofs.«173912_j58995670778248_2_alg».proof.Proof.Gen.ReferenceIdeal
import proofs.«173912_j58995670778248_2_alg».proof.Proof.Gen.Pre_finite_inputs
import proofs.«173912_j58995670778248_2_alg».proof.Proof.Gen.ReferenceIdeal.Run
import proofs.«173912_j58995670778248_2_alg».proof.Proof.Gen.ReferenceIdeal.Read
import proofs.«173912_j58995670778248_2_alg».proof.Proof.RefIsSpec
import proofs.«173912_j58995670778248_2_alg».proof.Proof.Final
import Idealize.ShloMosaic.Adequacy
import Idealize.ShloMosaic.Init

noncomputable section

namespace Cert.Proof

open Idealize.ShloMosaic Idealize.SL.Sem

/-- The word-level kernel runs and leaves its arguments unchanged. -/
theorem frame_k : Cert.frame_Kernel := fun m ρ _ => Cert.Kernel.Gen.frame m ρ

/-- So does the kernel read over the extended reals. -/
theorem frame_ki : Cert.frame_KernelIdeal := fun m ρ _ => Cert.KernelIdeal.Gen.frame m ρ

/-- The reference runs and leaves its arguments unchanged: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Reading the kernel over the extended reals rewrote no operation. -/
theorem preserves : Cert.preserves_Kernel_KernelIdeal := trivial

/-- From memories that agree on the five arguments, the kernel's result array ends at `G` of them and so does the
    reference's. -/
theorem algebraic : Cert.algebraic_KernelIdeal_ReferenceIdeal := by
  intro m ρ m' ρ' _ hagree
  refine ⟨_, Cert.Final.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v11_eq, Cert.RefIsSpec.ref_eq, (hagree c).1, (hagree c).2.1, (hagree c).2.2.1,
    (hagree c).2.2.2.1, (hagree c).2.2.2.2]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
